-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S64x4096 : Shape := ⟨2, ![64, 4096]⟩
abbrev S1x4096 : Shape := ⟨2, ![1, 4096]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S1x4096 : S_.BroadcastsInDim S1x4096 (![] : Fin 0 → Fin S1x4096.rank)
  reducesTo_S1x4096_S_d0_1 : S1x4096.ReducesTo [0, 1] S_

variable [Facts]

def fn {F : FTy → Type} [FloatOps F] (main_arg0 : FVec F S32768x4096 .f32) (main_arg1 : FVec F S64x4096 .f32) (main_arg2 : FVec F S1x4096 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S1x4096 .f32 := Host.absf main_arg2
  let main_cst_2 : FVec F S_ .f32 := constant S_ .f32 0x7F800000#32
  let main_v10 : FVec F S1x4096 .f32 := broadcastInDim S1x4096 ![] bcast_S_S1x4096 main_cst_2
  let main_v11 : IVec S1x4096 1 := cmpf .olt main_v9 main_v10
  let main_c_3 : IVec S_ 1 := constantI S_ 1 1#1
  let main_v12 : IVec S_ 1 := (fun x v => Host.reduce IntOp.andi x v reducesTo_S1x4096_S_d0_1 h_S_) main_v11 main_c_3
  let main_v13 : IVec S_ 1 := andi main_v8 main_v12
  main_v13
-- ==== Kernel.lean ====
abbrev S32768x4096 : Shape := ⟨2, ![32768, 4096]⟩
abbrev S64x4096 : Shape := ⟨2, ![64, 4096]⟩
abbrev S1x4096 : Shape := ⟨2, ![1, 4096]⟩
abbrev S_ : Shape := ⟨0, ![]⟩
abbrev S63x4096 : Shape := ⟨2, ![63, 4096]⟩
abbrev S128x4096 : Shape := ⟨2, ![128, 4096]⟩
abbrev S32768x64 : Shape := ⟨2, ![32768, 64]⟩
abbrev S32768x1 : Shape := ⟨2, ![32768, 1]⟩
abbrev S1024x4096 : Shape := ⟨2, ![1024, 4096]⟩
abbrev S1024x64 : Shape := ⟨2, ![1024, 64]⟩
abbrev S1024x1 : Shape := ⟨2, ![1024, 1]⟩
abbrev S128x128 : Shape := ⟨2, ![128, 128]⟩
abbrev S128x64 : Shape := ⟨2, ![128, 64]⟩
abbrev S128 : Shape := ⟨1, ![128]⟩
abbrev S128x1 : Shape := ⟨2, ![128, 1]⟩

abbrev nBuf : Space → Nat
  | .hbm => 8
  | .vmem => 7
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S1x4096, .f32⟩
  | .hbm, ⟨3, _⟩ => ⟨S_, .f32⟩
  | .hbm, ⟨4, _⟩ => ⟨S63x4096, .f32⟩
  | .hbm, ⟨5, _⟩ => ⟨S128x4096, .f32⟩
  | .hbm, ⟨6, _⟩ => ⟨S32768x64, .f32⟩
  | .hbm, ⟨7, _⟩ => ⟨S32768x1, .f32⟩
  | .local _ .vmem, ⟨0, _⟩ => ⟨S1024x4096, .f32⟩
  | .local _ .vmem, ⟨1, _⟩ => ⟨S1024x4096, .f32⟩
  | .local _ .vmem, ⟨2, _⟩ => ⟨S128x4096, .f32⟩
  | .local _ .vmem, ⟨3, _⟩ => ⟨S1024x64, .f32⟩
  | .local _ .vmem, ⟨4, _⟩ => ⟨S1024x64, .f32⟩
  | .local _ .vmem, ⟨5, _⟩ => ⟨S1024x1, .f32⟩
  | .local _ .vmem, ⟨6, _⟩ => ⟨S1024x1, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S63x4096 : S_.BroadcastsInDim S63x4096 (![] : Fin 0 → Fin S63x4096.rank)
  concatenates_S64x4096_S1x4096_S63x4096_S128x4096_d0 : Shape.Concatenates [S64x4096, S1x4096, S63x4096] S128x4096 0
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S1024x4096_S128x4096_0_0 : ∀ a, (![0, 0] : Fin 2 → Nat) a + S128x4096.size a ≤ S1024x4096.size a
  slices_S128x128_o0_0_S128x64 : S128x128.Slices ![0, 0] S128x64
  reduces_S128x64_S128 : S128x64.Reduces [1] S128
  shapeCasts_S128_S128x1 : S128.ShapeCasts S128x1
  broadcasts_S128x1_S128x64 : S128x1.Broadcasts S128x64
  inb_S1024x64_S128x64_0_0 : ∀ a, (![0, 0] : Fin 2 → Nat) a + S128x64.size a ≤ S1024x64.size a
  h_S128x64 : 0 < S128x64.numel
  slices_S128x128_o0_64_S128x1 : S128x128.Slices ![0, 64] S128x1
  inb_S1024x1_S128x1_0_0 : ∀ a, (![0, 0] : Fin 2 → Nat) a + S128x1.size a ≤ S1024x1.size a
  h_S128x1 : 0 < S128x1.numel
  inb_S1024x4096_S128x4096_128_0 : ∀ a, (![128, 0] : Fin 2 → Nat) a + S128x4096.size a ≤ S1024x4096.size a
  inb_S1024x64_S128x64_128_0 : ∀ a, (![128, 0] : Fin 2 → Nat) a + S128x64.size a ≤ S1024x64.size a
  inb_S1024x1_S128x1_128_0 : ∀ a, (![128, 0] : Fin 2 → Nat) a + S128x1.size a ≤ S1024x1.size a
  inb_S1024x4096_S128x4096_256_0 : ∀ a, (![256, 0] : Fin 2 → Nat) a + S128x4096.size a ≤ S1024x4096.size a
  inb_S1024x64_S128x64_256_0 : ∀ a, (![256, 0] : Fin 2 → Nat) a + S128x64.size a ≤ S1024x64.size a
  inb_S1024x1_S128x1_256_0 : ∀ a, (![256, 0] : Fin 2 → Nat) a + S128x1.size a ≤ S1024x1.size a
  inb_S1024x4096_S128x4096_384_0 : ∀ a, (![384, 0] : Fin 2 → Nat) a + S128x4096.size a ≤ S1024x4096.size a
  inb_S1024x64_S128x64_384_0 : ∀ a, (![384, 0] : Fin 2 → Nat) a + S128x64.size a ≤ S1024x64.size a
  inb_S1024x1_S128x1_384_0 : ∀ a, (![384, 0] : Fin 2 → Nat) a + S128x1.size a ≤ S1024x1.size a
  inb_S1024x4096_S128x4096_512_0 : ∀ a, (![512, 0] : Fin 2 → Nat) a + S128x4096.size a ≤ S1024x4096.size a
  inb_S1024x64_S128x64_512_0 : ∀ a, (![512, 0] : Fin 2 → Nat) a + S128x64.size a ≤ S1024x64.size a
  inb_S1024x1_S128x1_512_0 : ∀ a, (![512, 0] : Fin 2 → Nat) a + S128x1.size a ≤ S1024x1.size a
  inb_S1024x4096_S128x4096_640_0 : ∀ a, (![640, 0] : Fin 2 → Nat) a + S128x4096.size a ≤ S1024x4096.size a
  inb_S1024x64_S128x64_640_0 : ∀ a, (![640, 0] : Fin 2 → Nat) a + S128x64.size a ≤ S1024x64.size a
  inb_S1024x1_S128x1_640_0 : ∀ a, (![640, 0] : Fin 2 → Nat) a + S128x1.size a ≤ S1024x1.size a
  inb_S1024x4096_S128x4096_768_0 : ∀ a, (![768, 0] : Fin 2 → Nat) a + S128x4096.size a ≤ S1024x4096.size a
  inb_S1024x64_S128x64_768_0 : ∀ a, (![768, 0] : Fin 2 → Nat) a + S128x64.size a ≤ S1024x64.size a
  inb_S1024x1_S128x1_768_0 : ∀ a, (![768, 0] : Fin 2 → Nat) a + S128x1.size a ≤ S1024x1.size a
  inb_S1024x4096_S128x4096_896_0 : ∀ a, (![896, 0] : Fin 2 → Nat) a + S128x4096.size a ≤ S1024x4096.size a
  inb_S1024x64_S128x64_896_0 : ∀ a, (![896, 0] : Fin 2 → Nat) a + S128x64.size a ≤ S1024x64.size a
  inb_S1024x1_S128x1_896_0 : ∀ a, (![896, 0] : Fin 2 → Nat) a + S128x1.size a ≤ S1024x1.size a
  dot_S128x4096_S128x4096_S128x128_1_1_0_0_n_n_wf : DotDims.WF S128x4096 S128x4096 S128x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S32768x4096.size a
  hwx0_0 : ∀ i : grid0.Coords, EltTy.bits .f32 = 32 ∨ (Rect.block (s := S32768x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S128x4096.size a
  hwx0_1 : ∀ i : grid0.Coords, EltTy.bits .f32 = 32 ∨ (Rect.block (s := S128x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S32768x64.size a
  hwx0_2 : ∀ i : grid0.Coords, EltTy.bits .f32 = 32 ∨ (Rect.block (s := S32768x64) S1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S32768x1.size a
  hwx0_3 : ∀ i : grid0.Coords, EltTy.bits .f32 = 32 ∨ (Rect.block (s := S32768x1) S1024x1.size (cc0_transform_3 i) (hinb0_3 i)).WholeWords (EltTy.packing .f32)

variable [Facts₀]

def dot_S128x4096_S128x4096_S128x128_1_1_0_0_n_n : DotDims S128x4096 S128x4096 S128x128 where
  lhsContracting := [1]
  rhsContracting := [1]
  lhsNonContracting := [0]
  rhsNonContracting := [0]
  lhsBatch := []
  rhsBatch := []
  wf := dot_S128x4096_S128x4096_S128x128_1_1_0_0_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1024x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x4096 : Shape := ⟨2, ![32768, 4096]⟩
abbrev S64x4096 : Shape := ⟨2, ![64, 4096]⟩
abbrev S1x4096 : Shape := ⟨2, ![1, 4096]⟩
abbrev S4096x64 : Shape := ⟨2, ![4096, 64]⟩
abbrev S32768x64 : Shape := ⟨2, ![32768, 64]⟩
abbrev S_ : Shape := ⟨0, ![]⟩
abbrev S32768 : Shape := ⟨1, ![32768]⟩
abbrev S32768x1 : Shape := ⟨2, ![32768, 1]⟩
abbrev S4096x1 : Shape := ⟨2, ![4096, 1]⟩

abbrev nBuf : Space → Nat
  | .hbm => 29
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S1x4096, .f32⟩
  | .hbm, ⟨3, _⟩ => ⟨S4096x64, .f32⟩
  | .hbm, ⟨4, _⟩ => ⟨S32768x64, .f32⟩
  | .hbm, ⟨5, _⟩ => ⟨S_, .f32⟩
  | .hbm, ⟨6, _⟩ => ⟨S32768, .f32⟩
  | .hbm, ⟨7, _⟩ => ⟨S_, .f32⟩
  | .hbm, ⟨8, _⟩ => ⟨S32768, .f32⟩
  | .hbm, ⟨9, _⟩ => ⟨S32768, .f32⟩
  | .hbm, ⟨10, _⟩ => ⟨S32768x1, .f32⟩
  | .hbm, ⟨11, _⟩ => ⟨S32768x64, .f32⟩
  | .hbm, ⟨12, _⟩ => ⟨S32768x64, .f32⟩
  | .hbm, ⟨13, _⟩ => ⟨S32768x64, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S32768x64, .f32⟩
  | .hbm, ⟨18, _⟩ => ⟨S32768x64, .f32⟩
  | .hbm, ⟨19, _⟩ => ⟨S4096x1, .f32⟩
  | .hbm, ⟨20, _⟩ => ⟨S32768x1, .f32⟩
  | .hbm, ⟨21, _⟩ => ⟨S32768x1, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  transposes_S64x4096_S4096x64_1_0 : S64x4096.Transposes [1, 0] S4096x64
  reducesTo_S32768x64_S32768_d1 : S32768x64.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  transposes_S1x4096_S4096x1_1_0 : S1x4096.Transposes [1, 0] S4096x1
  bcast_S_S32768x1 : S_.BroadcastsInDim S32768x1 (![] : Fin 0 → Fin S32768x1.rank)
  dot_S32768x4096_S4096x64_S32768x64_1_0_0_1_n_n_wf : DotDims.WF S32768x4096 S4096x64 S32768x64 [1] [0] [0] [1] [] []
  dot_S32768x4096_S4096x1_S32768x1_1_0_0_1_n_n_wf : DotDims.WF S32768x4096 S4096x1 S32768x1 [1] [0] [0] [1] [] []

variable [Facts₀]

def dot_S32768x4096_S4096x64_S32768x64_1_0_0_1_n_n : DotDims S32768x4096 S4096x64 S32768x64 where
  lhsContracting := [1]
  rhsContracting := [0]
  lhsNonContracting := [0]
  rhsNonContracting := [1]
  lhsBatch := []
  rhsBatch := []
  wf := dot_S32768x4096_S4096x64_S32768x64_1_0_0_1_n_n_wf
def dot_S32768x4096_S4096x1_S32768x1_1_0_0_1_n_n : DotDims S32768x4096 S4096x1 S32768x1 where
  lhsContracting := [1]
  rhsContracting := [0]
  lhsNonContracting := [0]
  rhsNonContracting := [1]
  lhsBatch := []
  rhsBatch := []
  wf := dot_S32768x4096_S4096x1_S32768x1_1_0_0_1_n_n_wf

class Facts : Prop extends Facts₀ where

variable [Facts]
-- ==== Proof.KBlock.lean ====
/-
  One 128-token slab of the kernel's body as pure functions of its two loads, for any float instance.

  The body handles a block of 1024 tokens as eight slabs of 128. For each slab it multiplies the slab (128 × 4096)
  by the packed weight matrix (128 rows: the 64 router rows, the gate row, 63 zero rows; contracted over the 4096
  channels), giving 128 × 128 products. Columns 0–63 are the expert logits: the routing probabilities are their
  row-wise softmax. Column 64 is the gate logit: the shared gate is its logistic function.
-/
import proofs.«129200_g7705171329365_cont_9to1_m_101_16_alg».proof.Proof.Gen.Kernel

noncomputable section

namespace Cert.Kernel.Blk

open Idealize.ShloMosaic Cert.Kernel Cert.Kernel.Gen

variable {F : FTy → Type} [FloatOps F]

/-- The products of a slab `x` with the packed weights `w`: entry `(q, c)` is the contraction over the channels of
    row `q` of the slab with row `c` of the weights, accumulated from zero. -/
def logitsAll (w x : Vec F S128x4096 .f32) : FVec F S128x128 .f32 :=
  matmul dot_S128x4096_S128x4096_S128x128_1_1_0_0_n_n none x (shapeCast S128x4096 w shapeCasts_S128x4096_S128x4096)
    (constant S128x128 .f32 0x00000000#32)

/-- The expert logits (columns 0–63), each less its row's maximum, exponentiated. -/
def shiftExp (z : FVec F S128x128 .f32) : FVec F S128x64 .f32 :=
  exp (subf (extractStridedSlice S128x64 ![0, 0] z slices_S128x128_o0_0_S128x64)
    (broadcastTo S128x64 (shapeCast S128x1
      (multiReduction .maximumf [1] S128 (extractStridedSlice S128x64 ![0, 0] z slices_S128x128_o0_0_S128x64)
        0xFF800000#32 reduces_S128x64_S128 (.inl rfl) rfl) shapeCasts_S128_S128x1) broadcasts_S128x1_S128x64))

/-- Each entry divided by its row's sum. -/
def normalize (e : FVec F S128x64 .f32) : FVec F S128x64 .f32 :=
  divf e (broadcastTo S128x64 (shapeCast S128x1
    (multiReduction .add [1] S128 e 0x00000000#32 reduces_S128x64_S128 (.inl rfl) rfl) shapeCasts_S128_S128x1)
    broadcasts_S128x1_S128x64)

/-- The slab's routing probabilities: the row-wise softmax of the expert logits. -/
def probsOf (z : FVec F S128x128 .f32) : FVec F S128x64 .f32 := normalize (shiftExp z)

/-- The slab's shared gate: the logistic function of column 64. -/
def gateOf (z : FVec F S128x128 .f32) : FVec F S128x1 .f32 :=
  logistic (extractStridedSlice S128x1 ![0, 64] z slices_S128x128_o0_64_S128x1)

end Cert.Kernel.Blk

end
-- ==== Proof.KBody.lean ====
/-
  One grid point of the router kernel, as a fact about the four staging buffers it is handed.

  The body is given a block of 1024 tokens (1024 × 4096), the packed weights (128 × 4096) and two output buffers
  (1024 × 64 and 1024 × 1). It treats the block as eight slabs of 128 tokens: slab `p` is rows `128 p … 128 p + 127`.
  For each slab it stores the slab's routing probabilities into the same rows of the first output buffer and the
  slab's shared gate into the same rows of the second. The eight stores into each output buffer tile it, so whatever
  the buffers held before, afterwards each holds exactly the eight slabs' results; the two inputs are only read.
-/
import proofs.«129200_g7705171329365_cont_9to1_m_101_16_alg».proof.Proof.Gen.Kernel.Launch
import proofs.«129200_g7705171329365_cont_9to1_m_101_16_alg».proof.Proof.Gen.Kernel.Skeleton
import proofs.«129200_g7705171329365_cont_9to1_m_101_16_alg».proof.Proof.Gen.Kernel.Points
import proofs.«129200_g7705171329365_cont_9to1_m_101_16_alg».proof.Proof.KBlock
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

/-- The whole weight buffer. -/
abbrev rW : Rect S128x4096 := Rect.unit (s := S128x4096) ![0, 0] S128x4096.size inb_S128x4096_S128x4096_0_0
/-- Slab 0 of the token block: rows 0 to 127. -/
abbrev rX0 : Rect S1024x4096 := Rect.unit (s := S1024x4096) ![0, 0] S128x4096.size inb_S1024x4096_S128x4096_0_0
/-- The same rows of the probabilities buffer. -/
abbrev rS0 : Rect S1024x64 := Rect.unit (s := S1024x64) ![0, 0] S128x64.size inb_S1024x64_S128x64_0_0
/-- The same rows of the gate buffer. -/
abbrev rG0 : Rect S1024x1 := Rect.unit (s := S1024x1) ![0, 0] S128x1.size inb_S1024x1_S128x1_0_0
/-- Slab 1 of the token block: rows 128 to 255. -/
abbrev rX1 : Rect S1024x4096 := Rect.unit (s := S1024x4096) ![128, 0] S128x4096.size inb_S1024x4096_S128x4096_128_0
/-- The same rows of the probabilities buffer. -/
abbrev rS1 : Rect S1024x64 := Rect.unit (s := S1024x64) ![128, 0] S128x64.size inb_S1024x64_S128x64_128_0
/-- The same rows of the gate buffer. -/
abbrev rG1 : Rect S1024x1 := Rect.unit (s := S1024x1) ![128, 0] S128x1.size inb_S1024x1_S128x1_128_0
/-- Slab 2 of the token block: rows 256 to 383. -/
abbrev rX2 : Rect S1024x4096 := Rect.unit (s := S1024x4096) ![256, 0] S128x4096.size inb_S1024x4096_S128x4096_256_0
/-- The same rows of the probabilities buffer. -/
abbrev rS2 : Rect S1024x64 := Rect.unit (s := S1024x64) ![256, 0] S128x64.size inb_S1024x64_S128x64_256_0
/-- The same rows of the gate buffer. -/
abbrev rG2 : Rect S1024x1 := Rect.unit (s := S1024x1) ![256, 0] S128x1.size inb_S1024x1_S128x1_256_0
/-- Slab 3 of the token block: rows 384 to 511. -/
abbrev rX3 : Rect S1024x4096 := Rect.unit (s := S1024x4096) ![384, 0] S128x4096.size inb_S1024x4096_S128x4096_384_0
/-- The same rows of the probabilities buffer. -/
abbrev rS3 : Rect S1024x64 := Rect.unit (s := S1024x64) ![384, 0] S128x64.size inb_S1024x64_S128x64_384_0
/-- The same rows of the gate buffer. -/
abbrev rG3 : Rect S1024x1 := Rect.unit (s := S1024x1) ![384, 0] S128x1.size inb_S1024x1_S128x1_384_0
/-- Slab 4 of the token block: rows 512 to 639. -/
abbrev rX4 : Rect S1024x4096 := Rect.unit (s := S1024x4096) ![512, 0] S128x4096.size inb_S1024x4096_S128x4096_512_0
/-- The same rows of the probabilities buffer. -/
abbrev rS4 : Rect S1024x64 := Rect.unit (s := S1024x64) ![512, 0] S128x64.size inb_S1024x64_S128x64_512_0
/-- The same rows of the gate buffer. -/
abbrev rG4 : Rect S1024x1 := Rect.unit (s := S1024x1) ![512, 0] S128x1.size inb_S1024x1_S128x1_512_0
/-- Slab 5 of the token block: rows 640 to 767. -/
abbrev rX5 : Rect S1024x4096 := Rect.unit (s := S1024x4096) ![640, 0] S128x4096.size inb_S1024x4096_S128x4096_640_0
/-- The same rows of the probabilities buffer. -/
abbrev rS5 : Rect S1024x64 := Rect.unit (s := S1024x64) ![640, 0] S128x64.size inb_S1024x64_S128x64_640_0
/-- The same rows of the gate buffer. -/
abbrev rG5 : Rect S1024x1 := Rect.unit (s := S1024x1) ![640, 0] S128x1.size inb_S1024x1_S128x1_640_0
/-- Slab 6 of the token block: rows 768 to 895. -/
abbrev rX6 : Rect S1024x4096 := Rect.unit (s := S1024x4096) ![768, 0] S128x4096.size inb_S1024x4096_S128x4096_768_0
/-- The same rows of the probabilities buffer. -/
abbrev rS6 : Rect S1024x64 := Rect.unit (s := S1024x64) ![768, 0] S128x64.size inb_S1024x64_S128x64_768_0
/-- The same rows of the gate buffer. -/
abbrev rG6 : Rect S1024x1 := Rect.unit (s := S1024x1) ![768, 0] S128x1.size inb_S1024x1_S128x1_768_0
/-- Slab 7 of the token block: rows 896 to 1023. -/
abbrev rX7 : Rect S1024x4096 := Rect.unit (s := S1024x4096) ![896, 0] S128x4096.size inb_S1024x4096_S128x4096_896_0
/-- The same rows of the probabilities buffer. -/
abbrev rS7 : Rect S1024x64 := Rect.unit (s := S1024x64) ![896, 0] S128x64.size inb_S1024x64_S128x64_896_0
/-- The same rows of the gate buffer. -/
abbrev rG7 : Rect S1024x1 := Rect.unit (s := S1024x1) ![896, 0] S128x1.size inb_S1024x1_S128x1_896_0

/-! ## What the body leaves in the two output buffers -/

/-- The probabilities buffer after the body: slab `p`'s softmax in rows `128 p …`, for the eight slabs
    (listed last store first). -/
def probsBuf (w : Vec F S128x4096 .f32) (x : Vec F S1024x4096 .f32) : Vec F S1024x64 .f32 :=
  View.canon [⟨rS7, Blk.probsOf (Blk.logitsAll (View.ld w rW) (View.ld x rX7))⟩,
    ⟨rS6, Blk.probsOf (Blk.logitsAll (View.ld w rW) (View.ld x rX6))⟩,
    ⟨rS5, Blk.probsOf (Blk.logitsAll (View.ld w rW) (View.ld x rX5))⟩,
    ⟨rS4, Blk.probsOf (Blk.logitsAll (View.ld w rW) (View.ld x rX4))⟩,
    ⟨rS3, Blk.probsOf (Blk.logitsAll (View.ld w rW) (View.ld x rX3))⟩,
    ⟨rS2, Blk.probsOf (Blk.logitsAll (View.ld w rW) (View.ld x rX2))⟩,
    ⟨rS1, Blk.probsOf (Blk.logitsAll (View.ld w rW) (View.ld x rX1))⟩,
    ⟨rS0, Blk.probsOf (Blk.logitsAll (View.ld w rW) (View.ld x rX0))⟩]

/-- The gate buffer after the body: slab `p`'s logistic gate in rows `128 p …`, for the eight slabs. -/
def gateBuf (w : Vec F S128x4096 .f32) (x : Vec F S1024x4096 .f32) : Vec F S1024x1 .f32 :=
  View.canon [⟨rG7, Blk.gateOf (Blk.logitsAll (View.ld w rW) (View.ld x rX7))⟩,
    ⟨rG6, Blk.gateOf (Blk.logitsAll (View.ld w rW) (View.ld x rX6))⟩,
    ⟨rG5, Blk.gateOf (Blk.logitsAll (View.ld w rW) (View.ld x rX5))⟩,
    ⟨rG4, Blk.gateOf (Blk.logitsAll (View.ld w rW) (View.ld x rX4))⟩,
    ⟨rG3, Blk.gateOf (Blk.logitsAll (View.ld w rW) (View.ld x rX3))⟩,
    ⟨rG2, Blk.gateOf (Blk.logitsAll (View.ld w rW) (View.ld x rX2))⟩,
    ⟨rG1, Blk.gateOf (Blk.logitsAll (View.ld w rW) (View.ld x rX1))⟩,
    ⟨rG0, Blk.gateOf (Blk.logitsAll (View.ld w rW) (View.ld x rX0))⟩]

/-- Eight slabs of 128 rows tile the 1024 rows of the probabilities buffer. -/
theorem probs_cover (p0 p1 p2 p3 p4 p5 p6 p7 : Vec F S128x64 .f32) (y : S1024x64.Idx) :
    ∃ pc ∈ ([⟨rS7, p7⟩, ⟨rS6, p6⟩, ⟨rS5, p5⟩, ⟨rS4, p4⟩, ⟨rS3, p3⟩, ⟨rS2, p2⟩, ⟨rS1, p1⟩, ⟨rS0, p0⟩] : List (View.Piece (Elt F) S1024x64 .f32)), y ∈ pc.1.set :=
  View.cover_of_tiled [⟨rS7, p7⟩, ⟨rS6, p6⟩, ⟨rS5, p5⟩, ⟨rS4, p4⟩, ⟨rS3, p3⟩, ⟨rS2, p2⟩, ⟨rS1, p1⟩, ⟨rS0, p0⟩] S128x64.size (by rfl) y

/-- Eight slabs of 128 rows tile the 1024 rows of the gate buffer. -/
theorem gate_cover (p0 p1 p2 p3 p4 p5 p6 p7 : Vec F S128x1 .f32) (y : S1024x1.Idx) :
    ∃ pc ∈ ([⟨rG7, p7⟩, ⟨rG6, p6⟩, ⟨rG5, p5⟩, ⟨rG4, p4⟩, ⟨rG3, p3⟩, ⟨rG2, p2⟩, ⟨rG1, p1⟩, ⟨rG0, p0⟩] : List (View.Piece (Elt F) S1024x1 .f32)), y ∈ pc.1.set :=
  View.cover_of_tiled [⟨rG7, p7⟩, ⟨rG6, p6⟩, ⟨rG5, p5⟩, ⟨rG4, p4⟩, ⟨rG3, p3⟩, ⟨rG2, p2⟩, ⟨rG1, p1⟩, ⟨rG0, p0⟩] S128x1.size (by rfl) y

/-! ## The body's triple -/

set_option maxHeartbeats 4000000 in
/-- From the block and the weights held whole at `x` and `w` and the two output buffers held whole at anything, the
    body runs to its return, handing back the inputs as they were and the outputs at `probsBuf w x` and `gateBuf w x`. -/
theorem body_triple (c : Dev nD) (E : Set ℕ) (i : grid0.Coords)
    (arg1 : Memref sig .tc .vmem S1024x4096 .f32) (harg1 : arg1.IsWhole) (arg2 : Memref sig .tc .vmem S128x4096 .f32) (harg2 : arg2.IsWhole)
    (arg3 : Memref sig .tc .vmem S1024x64 .f32) (harg3 : arg3.IsWhole) (arg4 : Memref sig .tc .vmem S1024x1 .f32) (harg4 : arg4.IsWhole)
    (x : Vec F S1024x4096 .f32) (w : Vec F S128x4096 .f32) (K : PUnit → sProp 𝕄) :
    iprop(owns (c : Thread nD τ) arg1 fullShare x ∗ owns (c : Thread nD τ) arg2 fullShare w
        ∗ (∃ d, owns (c : Thread nD τ) arg3 fullShare d) ∗ (∃ d, owns (c : Thread nD τ) arg4 fullShare d)
        ∗ (iprop(owns (c : Thread nD τ) arg1 fullShare x ∗ owns (c : Thread nD τ) arg2 fullShare w
            ∗ owns (c : Thread nD τ) arg3 fullShare (probsBuf w x) ∗ owns (c : Thread nD τ) arg4 fullShare (gateBuf w x)) -∗ K ⟨⟩))
      ⊢ wp frame (wpE (defs₀ (F := F)) Variants.none c none) E (cc0__router_kernel i arg1 harg1 arg2 harg2 arg3 harg3 arg4 harg4) K := by
  simp only [cc0__router_kernel_eq_skeleton]; unfold cc0__router_kernel_skel
  unfold owns
  iintro ⟨⟨%f1, %hf1, H1⟩, ⟨%f2, %hf2, H2⟩, ⟨%d3, %f3, -, H3⟩, ⟨%d4, %f4, -, H4⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (probs_cover _ _ _ _ _ _ _ _)
  iexists _; isplitr
  swap; · iexact H4
  ipureintro
  exact View.read_writes_eq_canon _ _ _ (gate_cover _ _ _ _ _ _ _ _)

end Cert.Kernel.Body

end
-- ==== Proof.KFrame.lean ====
/-
  The router program's run on the TensorCores: it terminates, faults nowhere, and leaves its three arguments as they
  were; and what its two result arrays hold at the end, in the pipeline library's terms.

  The program is three host operations — a zero constant, its broadcast to 63 rows, and the concatenation of the 64
  router rows, the gate row and the 63 zero rows into one packed 128 × 4096 weight matrix — followed by one pipelined
  region over 32 grid points. Point `t` is handed block `t` of the tokens (rows `1024 t …`), the packed weights (the
  same whole block at every point, fetched once) and writes back block `t` of each result. The body's effect on its
  four staging buffers is the module before this one; here it is placed in the pipeline: the inputs' staging buffers
  hold the arrays' blocks at every point, the outputs' hold what the body computed from them.
-/
import proofs.«129200_g7705171329365_cont_9to1_m_101_16_alg».proof.Proof.KBody

set_option maxRecDepth 16384

noncomputable section

namespace Cert.Kernel.Fr

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch memory after the three host operations. -/
abbrev entry (c : Dev nD) (b : Ref sig .tc) : Buf (Elt F) ((c : Thread nD τ).loc b) :=
  StableHlo.after hostOps0 (fun b => m (c, b)) b

/-- None of the three host operations allocates. -/
theorem hostOps_fresh : (hostOps0 : List (HloOp τ sig (Elt F))).Forall fun op => op.fresh = ∅ := by
  simp only [List.Forall]; repeat' constructor

/-- The program is the host operations, then the region. -/
theorem to_region (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps_fresh main_chain

/-- No host operation writes argument 0: the region finds it as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 1: the region finds it as launched. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 2: the region finds it as launched. -/
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! ## The pipeline's proof data -/

/-- On core `c`: the arrays as the region finds them; after the body at point `t` the two inputs' staging buffers
    still hold their blocks and the two outputs' hold what the body computes from those blocks; the invariant is the
    untouched rest; nothing is owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => probsBuf (blockAt m c 1 t) (blockAt m c 0 t)
    | ⟨3, _⟩ => gateBuf (blockAt m c 1 t) (blockAt m c 0 t)
  Φ _ := Pipeline.ΦA spec0 c
  q _ := fullShare
  owed _ := 0

theorem dats_A (c : Dev nD) (w : Fin cfg0.W) : (dats m 0 c).A w = entry m c (Pipeline.arrRef spec0 w) := by
  dsimp only [dats]

theorem after_tokens (c : Dev nD) (t : Fin cfg0.N) : (dats m 0 c).after 0 t = blockAt m c 0 t := by dsimp only [dats]
theorem after_weights (c : Dev nD) (t : Fin cfg0.N) : (dats m 0 c).after 1 t = blockAt m c 1 t := by dsimp only [dats]
theorem after_probs (c : Dev nD) (t : Fin cfg0.N) :
    (dats m 0 c).after 2 t = probsBuf (blockAt m c 1 t) (blockAt m c 0 t) := by dsimp only [dats]
theorem after_gate (c : Dev nD) (t : Fin cfg0.N) :
    (dats m 0 c).after 3 t = gateBuf (blockAt m c 1 t) (blockAt m c 0 t) := by dsimp only [dats]

/-- The token window's staging buffer holds the block of the point, fetched there (it is fetched at every point). -/
theorem before_tokens (c : Dev nD) (t : Fin cfg0.N) (d) : (dats m 0 c).before 0 t d = blockAt m c 0 t :=
  ((dats m 0 c).before_in_eq_fetched 0 rfl (fun _ => rfl) (fun _ _ _ => rfl)
      (fun t => by rw [after_tokens]; unfold Dat.blockOf blockAt; rw [dats_A]; try rfl) t d).trans
    (by unfold Dat.fetched Dat.blockOf blockAt; rw [dats_A]; try rfl)

/-- The weight window's staging buffer holds the whole packed matrix at every point, though it is fetched only at
    the first: its block index never moves and the body leaves it in place. -/
theorem before_weights (c : Dev nD) (t : Fin cfg0.N) (d) : (dats m 0 c).before 1 t d = blockAt m c 1 t :=
  ((dats m 0 c).before_in_eq_fetched 1 rfl (fun _ => rfl) (fun _ _ _ => rfl)
      (fun t => by rw [after_weights]; unfold Dat.blockOf blockAt; rw [dats_A]; try rfl) t d).trans
    (by unfold Dat.fetched Dat.blockOf blockAt; rw [dats_A]; try rfl)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' staging buffers hold their blocks, so the body's triple applies; the invariant
    and what the core owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_tokens, before_weights]
  rw [show (dats m 0 c).Φ t.succ = (dats m 0 c).Φ t.castSucc from rfl,
    show (dats m 0 c).owesAt () t.succ = (dats m 0 c).owesAt () t.castSucc from rfl,
    after_tokens, after_weights, after_probs, after_gate]
  iintro ⟨HΦ, Ho, ⟨%d0, H0⟩, ⟨%d1, H1⟩, ⟨%d2, H2⟩, ⟨%d3, H3⟩⟩
  iapply (body_triple c Set.univ _ _ _ _ _ _ _ _ _ (blockAt m c 0 t) (blockAt m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- Every weakly fair execution of the program terminates; at the end every array of the pipeline holds what the
    library computes from the proof data, and every other unscoped buffer what the region found. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := to_region m Variants.none) (hA := dats_A m) (hΦ := fun _ _ => rfl)

/-- The program terminates, faults nowhere and leaves its three arguments unchanged: the token array is an input
    window's array, never written; the router and gate rows are read by the concatenation only. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((dats_A m c 0).trans (entry_arg0 m c))),
      ((h c).2 main_arg1 (Pipeline.mem_restRefs_of main_arg1 (by decide) (by decide))).trans (entry_arg1 m c),
      ((h c).2 main_arg2 (Pipeline.mem_restRefs_of main_arg2 (by decide) (by decide))).trans (entry_arg2 m c)⟩) (run_main m ρ)

end Cert.Kernel.Fr

end
-- ==== Proof.KIBlock.lean ====
/-
  One 128-token slab of the kernel's body as pure functions of its two loads, for any float instance.

  The body handles a block of 1024 tokens as eight slabs of 128. For each slab it multiplies the slab (128 × 4096)
  by the packed weight matrix (128 rows: the 64 router rows, the gate row, 63 zero rows; contracted over the 4096
  channels), giving 128 × 128 products. Columns 0–63 are the expert logits: the routing probabilities are their
  row-wise softmax. Column 64 is the gate logit: the shared gate is its logistic function.
-/
import proofs.«129200_g7705171329365_cont_9to1_m_101_16_alg».proof.Proof.Gen.KernelIdeal

noncomputable section

namespace Cert.KernelIdeal.Blk

open Idealize.ShloMosaic Cert.KernelIdeal Cert.KernelIdeal.Gen

variable {F : FTy → Type} [FloatOps F]

/-- The products of a slab `x` with the packed weights `w`: entry `(q, c)` is the contraction over the channels of
    row `q` of the slab with row `c` of the weights, accumulated from zero. -/
def logitsAll (w x : Vec F S128x4096 .f32) : FVec F S128x128 .f32 :=
  matmul dot_S128x4096_S128x4096_S128x128_1_1_0_0_n_n none x (shapeCast S128x4096 w shapeCasts_S128x4096_S128x4096)
    (constant S128x128 .f32 0x00000000#32)

/-- The expert logits (columns 0–63), each less its row's maximum, exponentiated. -/
def shiftExp (z : FVec F S128x128 .f32) : FVec F S128x64 .f32 :=
  exp (subf (extractStridedSlice S128x64 ![0, 0] z slices_S128x128_o0_0_S128x64)
    (broadcastTo S128x64 (shapeCast S128x1
      (multiReduction .maximumf [1] S128 (extractStridedSlice S128x64 ![0, 0] z slices_S128x128_o0_0_S128x64)
        0xFF800000#32 reduces_S128x64_S128 (.inl rfl) rfl) shapeCasts_S128_S128x1) broadcasts_S128x1_S128x64))

/-- Each entry divided by its row's sum. -/
def normalize (e : FVec F S128x64 .f32) : FVec F S128x64 .f32 :=
  divf e (broadcastTo S128x64 (shapeCast S128x1
    (multiReduction .add [1] S128 e 0x00000000#32 reduces_S128x64_S128 (.inl rfl) rfl) shapeCasts_S128_S128x1)
    broadcasts_S128x1_S128x64)

/-- The slab's routing probabilities: the row-wise softmax of the expert logits. -/
def probsOf (z : FVec F S128x128 .f32) : FVec F S128x64 .f32 := normalize (shiftExp z)

/-- The slab's shared gate: the logistic function of column 64. -/
def gateOf (z : FVec F S128x128 .f32) : FVec F S128x1 .f32 :=
  logistic (extractStridedSlice S128x1 ![0, 64] z slices_S128x128_o0_64_S128x1)

end Cert.KernelIdeal.Blk

end
-- ==== Proof.KIBody.lean ====
/-
  One grid point of the router kernel, as a fact about the four staging buffers it is handed.

  The body is given a block of 1024 tokens (1024 × 4096), the packed weights (128 × 4096) and two output buffers
  (1024 × 64 and 1024 × 1). It treats the block as eight slabs of 128 tokens: slab `p` is rows `128 p … 128 p + 127`.
  For each slab it stores the slab's routing probabilities into the same rows of the first output buffer and the
  slab's shared gate into the same rows of the second. The eight stores into each output buffer tile it, so whatever
  the buffers held before, afterwards each holds exactly the eight slabs' results; the two inputs are only read.
-/
import proofs.«129200_g7705171329365_cont_9to1_m_101_16_alg».proof.Proof.Gen.KernelIdeal.Launch
import proofs.«129200_g7705171329365_cont_9to1_m_101_16_alg».proof.Proof.Gen.KernelIdeal.Skeleton
import proofs.«129200_g7705171329365_cont_9to1_m_101_16_alg».proof.Proof.Gen.KernelIdeal.Points
import proofs.«129200_g7705171329365_cont_9to1_m_101_16_alg».proof.Proof.KIBlock
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

/-- The whole weight buffer. -/
abbrev rW : Rect S128x4096 := Rect.unit (s := S128x4096) ![0, 0] S128x4096.size inb_S128x4096_S128x4096_0_0
/-- Slab 0 of the token block: rows 0 to 127. -/
abbrev rX0 : Rect S1024x4096 := Rect.unit (s := S1024x4096) ![0, 0] S128x4096.size inb_S1024x4096_S128x4096_0_0
/-- The same rows of the probabilities buffer. -/
abbrev rS0 : Rect S1024x64 := Rect.unit (s := S1024x64) ![0, 0] S128x64.size inb_S1024x64_S128x64_0_0
/-- The same rows of the gate buffer. -/
abbrev rG0 : Rect S1024x1 := Rect.unit (s := S1024x1) ![0, 0] S128x1.size inb_S1024x1_S128x1_0_0
/-- Slab 1 of the token block: rows 128 to 255. -/
abbrev rX1 : Rect S1024x4096 := Rect.unit (s := S1024x4096) ![128, 0] S128x4096.size inb_S1024x4096_S128x4096_128_0
/-- The same rows of the probabilities buffer. -/
abbrev rS1 : Rect S1024x64 := Rect.unit (s := S1024x64) ![128, 0] S128x64.size inb_S1024x64_S128x64_128_0
/-- The same rows of the gate buffer. -/
abbrev rG1 : Rect S1024x1 := Rect.unit (s := S1024x1) ![128, 0] S128x1.size inb_S1024x1_S128x1_128_0
/-- Slab 2 of the token block: rows 256 to 383. -/
abbrev rX2 : Rect S1024x4096 := Rect.unit (s := S1024x4096) ![256, 0] S128x4096.size inb_S1024x4096_S128x4096_256_0
/-- The same rows of the probabilities buffer. -/
abbrev rS2 : Rect S1024x64 := Rect.unit (s := S1024x64) ![256, 0] S128x64.size inb_S1024x64_S128x64_256_0
/-- The same rows of the gate buffer. -/
abbrev rG2 : Rect S1024x1 := Rect.unit (s := S1024x1) ![256, 0] S128x1.size inb_S1024x1_S128x1_256_0
/-- Slab 3 of the token block: rows 384 to 511. -/
abbrev rX3 : Rect S1024x4096 := Rect.unit (s := S1024x4096) ![384, 0] S128x4096.size inb_S1024x4096_S128x4096_384_0
/-- The same rows of the probabilities buffer. -/
abbrev rS3 : Rect S1024x64 := Rect.unit (s := S1024x64) ![384, 0] S128x64.size inb_S1024x64_S128x64_384_0
/-- The same rows of the gate buffer. -/
abbrev rG3 : Rect S1024x1 := Rect.unit (s := S1024x1) ![384, 0] S128x1.size inb_S1024x1_S128x1_384_0
/-- Slab 4 of the token block: rows 512 to 639. -/
abbrev rX4 : Rect S1024x4096 := Rect.unit (s := S1024x4096) ![512, 0] S128x4096.size inb_S1024x4096_S128x4096_512_0
/-- The same rows of the probabilities buffer. -/
abbrev rS4 : Rect S1024x64 := Rect.unit (s := S1024x64) ![512, 0] S128x64.size inb_S1024x64_S128x64_512_0
/-- The same rows of the gate buffer. -/
abbrev rG4 : Rect S1024x1 := Rect.unit (s := S1024x1) ![512, 0] S128x1.size inb_S1024x1_S128x1_512_0
/-- Slab 5 of the token block: rows 640 to 767. -/
abbrev rX5 : Rect S1024x4096 := Rect.unit (s := S1024x4096) ![640, 0] S128x4096.size inb_S1024x4096_S128x4096_640_0
/-- The same rows of the probabilities buffer. -/
abbrev rS5 : Rect S1024x64 := Rect.unit (s := S1024x64) ![640, 0] S128x64.size inb_S1024x64_S128x64_640_0
/-- The same rows of the gate buffer. -/
abbrev rG5 : Rect S1024x1 := Rect.unit (s := S1024x1) ![640, 0] S128x1.size inb_S1024x1_S128x1_640_0
/-- Slab 6 of the token block: rows 768 to 895. -/
abbrev rX6 : Rect S1024x4096 := Rect.unit (s := S1024x4096) ![768, 0] S128x4096.size inb_S1024x4096_S128x4096_768_0
/-- The same rows of the probabilities buffer. -/
abbrev rS6 : Rect S1024x64 := Rect.unit (s := S1024x64) ![768, 0] S128x64.size inb_S1024x64_S128x64_768_0
/-- The same rows of the gate buffer. -/
abbrev rG6 : Rect S1024x1 := Rect.unit (s := S1024x1) ![768, 0] S128x1.size inb_S1024x1_S128x1_768_0
/-- Slab 7 of the token block: rows 896 to 1023. -/
abbrev rX7 : Rect S1024x4096 := Rect.unit (s := S1024x4096) ![896, 0] S128x4096.size inb_S1024x4096_S128x4096_896_0
/-- The same rows of the probabilities buffer. -/
abbrev rS7 : Rect S1024x64 := Rect.unit (s := S1024x64) ![896, 0] S128x64.size inb_S1024x64_S128x64_896_0
/-- The same rows of the gate buffer. -/
abbrev rG7 : Rect S1024x1 := Rect.unit (s := S1024x1) ![896, 0] S128x1.size inb_S1024x1_S128x1_896_0

/-! ## What the body leaves in the two output buffers -/

/-- The probabilities buffer after the body: slab `p`'s softmax in rows `128 p …`, for the eight slabs
    (listed last store first). -/
def probsBuf (w : Vec F S128x4096 .f32) (x : Vec F S1024x4096 .f32) : Vec F S1024x64 .f32 :=
  View.canon [⟨rS7, Blk.probsOf (Blk.logitsAll (View.ld w rW) (View.ld x rX7))⟩,
    ⟨rS6, Blk.probsOf (Blk.logitsAll (View.ld w rW) (View.ld x rX6))⟩,
    ⟨rS5, Blk.probsOf (Blk.logitsAll (View.ld w rW) (View.ld x rX5))⟩,
    ⟨rS4, Blk.probsOf (Blk.logitsAll (View.ld w rW) (View.ld x rX4))⟩,
    ⟨rS3, Blk.probsOf (Blk.logitsAll (View.ld w rW) (View.ld x rX3))⟩,
    ⟨rS2, Blk.probsOf (Blk.logitsAll (View.ld w rW) (View.ld x rX2))⟩,
    ⟨rS1, Blk.probsOf (Blk.logitsAll (View.ld w rW) (View.ld x rX1))⟩,
    ⟨rS0, Blk.probsOf (Blk.logitsAll (View.ld w rW) (View.ld x rX0))⟩]

/-- The gate buffer after the body: slab `p`'s logistic gate in rows `128 p …`, for the eight slabs. -/
def gateBuf (w : Vec F S128x4096 .f32) (x : Vec F S1024x4096 .f32) : Vec F S1024x1 .f32 :=
  View.canon [⟨rG7, Blk.gateOf (Blk.logitsAll (View.ld w rW) (View.ld x rX7))⟩,
    ⟨rG6, Blk.gateOf (Blk.logitsAll (View.ld w rW) (View.ld x rX6))⟩,
    ⟨rG5, Blk.gateOf (Blk.logitsAll (View.ld w rW) (View.ld x rX5))⟩,
    ⟨rG4, Blk.gateOf (Blk.logitsAll (View.ld w rW) (View.ld x rX4))⟩,
    ⟨rG3, Blk.gateOf (Blk.logitsAll (View.ld w rW) (View.ld x rX3))⟩,
    ⟨rG2, Blk.gateOf (Blk.logitsAll (View.ld w rW) (View.ld x rX2))⟩,
    ⟨rG1, Blk.gateOf (Blk.logitsAll (View.ld w rW) (View.ld x rX1))⟩,
    ⟨rG0, Blk.gateOf (Blk.logitsAll (View.ld w rW) (View.ld x rX0))⟩]

/-- Eight slabs of 128 rows tile the 1024 rows of the probabilities buffer. -/
theorem probs_cover (p0 p1 p2 p3 p4 p5 p6 p7 : Vec F S128x64 .f32) (y : S1024x64.Idx) :
    ∃ pc ∈ ([⟨rS7, p7⟩, ⟨rS6, p6⟩, ⟨rS5, p5⟩, ⟨rS4, p4⟩, ⟨rS3, p3⟩, ⟨rS2, p2⟩, ⟨rS1, p1⟩, ⟨rS0, p0⟩] : List (View.Piece (Elt F) S1024x64 .f32)), y ∈ pc.1.set :=
  View.cover_of_tiled [⟨rS7, p7⟩, ⟨rS6, p6⟩, ⟨rS5, p5⟩, ⟨rS4, p4⟩, ⟨rS3, p3⟩, ⟨rS2, p2⟩, ⟨rS1, p1⟩, ⟨rS0, p0⟩] S128x64.size (by rfl) y

/-- Eight slabs of 128 rows tile the 1024 rows of the gate buffer. -/
theorem gate_cover (p0 p1 p2 p3 p4 p5 p6 p7 : Vec F S128x1 .f32) (y : S1024x1.Idx) :
    ∃ pc ∈ ([⟨rG7, p7⟩, ⟨rG6, p6⟩, ⟨rG5, p5⟩, ⟨rG4, p4⟩, ⟨rG3, p3⟩, ⟨rG2, p2⟩, ⟨rG1, p1⟩, ⟨rG0, p0⟩] : List (View.Piece (Elt F) S1024x1 .f32)), y ∈ pc.1.set :=
  View.cover_of_tiled [⟨rG7, p7⟩, ⟨rG6, p6⟩, ⟨rG5, p5⟩, ⟨rG4, p4⟩, ⟨rG3, p3⟩, ⟨rG2, p2⟩, ⟨rG1, p1⟩, ⟨rG0, p0⟩] S128x1.size (by rfl) y

/-! ## The body's triple -/

set_option maxHeartbeats 4000000 in
/-- From the block and the weights held whole at `x` and `w` and the two output buffers held whole at anything, the
    body runs to its return, handing back the inputs as they were and the outputs at `probsBuf w x` and `gateBuf w x`. -/
theorem body_triple (c : Dev nD) (E : Set ℕ) (i : grid0.Coords)
    (arg1 : Memref sig .tc .vmem S1024x4096 .f32) (harg1 : arg1.IsWhole) (arg2 : Memref sig .tc .vmem S128x4096 .f32) (harg2 : arg2.IsWhole)
    (arg3 : Memref sig .tc .vmem S1024x64 .f32) (harg3 : arg3.IsWhole) (arg4 : Memref sig .tc .vmem S1024x1 .f32) (harg4 : arg4.IsWhole)
    (x : Vec F S1024x4096 .f32) (w : Vec F S128x4096 .f32) (K : PUnit → sProp 𝕄) :
    iprop(owns (c : Thread nD τ) arg1 fullShare x ∗ owns (c : Thread nD τ) arg2 fullShare w
        ∗ (∃ d, owns (c : Thread nD τ) arg3 fullShare d) ∗ (∃ d, owns (c : Thread nD τ) arg4 fullShare d)
        ∗ (iprop(owns (c : Thread nD τ) arg1 fullShare x ∗ owns (c : Thread nD τ) arg2 fullShare w
            ∗ owns (c : Thread nD τ) arg3 fullShare (probsBuf w x) ∗ owns (c : Thread nD τ) arg4 fullShare (gateBuf w x)) -∗ K ⟨⟩))
      ⊢ wp frame (wpE (defs₀ (F := F)) Variants.none c none) E (cc0__router_kernel i arg1 harg1 arg2 harg2 arg3 harg3 arg4 harg4) K := by
  simp only [cc0__router_kernel_eq_skeleton]; unfold cc0__router_kernel_skel
  unfold owns
  iintro ⟨⟨%f1, %hf1, H1⟩, ⟨%f2, %hf2, H2⟩, ⟨%d3, %f3, -, H3⟩, ⟨%d4, %f4, -, H4⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (probs_cover _ _ _ _ _ _ _ _)
  iexists _; isplitr
  swap; · iexact H4
  ipureintro
  exact View.read_writes_eq_canon _ _ _ (gate_cover _ _ _ _ _ _ _ _)

end Cert.KernelIdeal.Body

end
-- ==== Proof.KIFrame.lean ====
/-
  The router program's run on the TensorCores: it terminates, faults nowhere, and leaves its three arguments as they
  were; and what its two result arrays hold at the end, in the pipeline library's terms.

  The program is three host operations — a zero constant, its broadcast to 63 rows, and the concatenation of the 64
  router rows, the gate row and the 63 zero rows into one packed 128 × 4096 weight matrix — followed by one pipelined
  region over 32 grid points. Point `t` is handed block `t` of the tokens (rows `1024 t …`), the packed weights (the
  same whole block at every point, fetched once) and writes back block `t` of each result. The body's effect on its
  four staging buffers is the module before this one; here it is placed in the pipeline: the inputs' staging buffers
  hold the arrays' blocks at every point, the outputs' hold what the body computed from them.
-/
import proofs.«129200_g7705171329365_cont_9to1_m_101_16_alg».proof.Proof.KIBody

set_option maxRecDepth 16384

noncomputable section

namespace Cert.KernelIdeal.Fr

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch memory after the three host operations. -/
abbrev entry (c : Dev nD) (b : Ref sig .tc) : Buf (Elt F) ((c : Thread nD τ).loc b) :=
  StableHlo.after hostOps0 (fun b => m (c, b)) b

/-- None of the three host operations allocates. -/
theorem hostOps_fresh : (hostOps0 : List (HloOp τ sig (Elt F))).Forall fun op => op.fresh = ∅ := by
  simp only [List.Forall]; repeat' constructor

/-- The program is the host operations, then the region. -/
theorem to_region (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps_fresh main_chain

/-- No host operation writes argument 0: the region finds it as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 1: the region finds it as launched. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation writes argument 2: the region finds it as launched. -/
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! ## The pipeline's proof data -/

/-- On core `c`: the arrays as the region finds them; after the body at point `t` the two inputs' staging buffers
    still hold their blocks and the two outputs' hold what the body computes from those blocks; the invariant is the
    untouched rest; nothing is owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => probsBuf (blockAt m c 1 t) (blockAt m c 0 t)
    | ⟨3, _⟩ => gateBuf (blockAt m c 1 t) (blockAt m c 0 t)
  Φ _ := Pipeline.ΦA spec0 c
  q _ := fullShare
  owed _ := 0

theorem dats_A (c : Dev nD) (w : Fin cfg0.W) : (dats m 0 c).A w = entry m c (Pipeline.arrRef spec0 w) := by
  dsimp only [dats]

theorem after_tokens (c : Dev nD) (t : Fin cfg0.N) : (dats m 0 c).after 0 t = blockAt m c 0 t := by dsimp only [dats]
theorem after_weights (c : Dev nD) (t : Fin cfg0.N) : (dats m 0 c).after 1 t = blockAt m c 1 t := by dsimp only [dats]
theorem after_probs (c : Dev nD) (t : Fin cfg0.N) :
    (dats m 0 c).after 2 t = probsBuf (blockAt m c 1 t) (blockAt m c 0 t) := by dsimp only [dats]
theorem after_gate (c : Dev nD) (t : Fin cfg0.N) :
    (dats m 0 c).after 3 t = gateBuf (blockAt m c 1 t) (blockAt m c 0 t) := by dsimp only [dats]

/-- The token window's staging buffer holds the block of the point, fetched there (it is fetched at every point). -/
theorem before_tokens (c : Dev nD) (t : Fin cfg0.N) (d) : (dats m 0 c).before 0 t d = blockAt m c 0 t :=
  ((dats m 0 c).before_in_eq_fetched 0 rfl (fun _ => rfl) (fun _ _ _ => rfl)
      (fun t => by rw [after_tokens]; unfold Dat.blockOf blockAt; rw [dats_A]; try rfl) t d).trans
    (by unfold Dat.fetched Dat.blockOf blockAt; rw [dats_A]; try rfl)

/-- The weight window's staging buffer holds the whole packed matrix at every point, though it is fetched only at
    the first: its block index never moves and the body leaves it in place. -/
theorem before_weights (c : Dev nD) (t : Fin cfg0.N) (d) : (dats m 0 c).before 1 t d = blockAt m c 1 t :=
  ((dats m 0 c).before_in_eq_fetched 1 rfl (fun _ => rfl) (fun _ _ _ => rfl)
      (fun t => by rw [after_weights]; unfold Dat.blockOf blockAt; rw [dats_A]; try rfl) t d).trans
    (by unfold Dat.fetched Dat.blockOf blockAt; rw [dats_A]; try rfl)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' staging buffers hold their blocks, so the body's triple applies; the invariant
    and what the core owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_tokens, before_weights]
  rw [show (dats m 0 c).Φ t.succ = (dats m 0 c).Φ t.castSucc from rfl,
    show (dats m 0 c).owesAt () t.succ = (dats m 0 c).owesAt () t.castSucc from rfl,
    after_tokens, after_weights, after_probs, after_gate]
  iintro ⟨HΦ, Ho, ⟨%d0, H0⟩, ⟨%d1, H1⟩, ⟨%d2, H2⟩, ⟨%d3, H3⟩⟩
  iapply (body_triple c Set.univ _ _ _ _ _ _ _ _ _ (blockAt m c 0 t) (blockAt m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- Every weakly fair execution of the program terminates; at the end every array of the pipeline holds what the
    library computes from the proof data, and every other unscoped buffer what the region found. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := to_region m Variants.none) (hA := dats_A m) (hΦ := fun _ _ => rfl)

/-- The program terminates, faults nowhere and leaves its three arguments unchanged: the token array is an input
    window's array, never written; the router and gate rows are read by the concatenation only. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((dats_A m c 0).trans (entry_arg0 m c))),
      ((h c).2 main_arg1 (Pipeline.mem_restRefs_of main_arg1 (by decide) (by decide))).trans (entry_arg1 m c),
      ((h c).2 main_arg2 (Pipeline.mem_restRefs_of main_arg2 (by decide) (by decide))).trans (entry_arg2 m c)⟩) (run_main m ρ)

end Cert.KernelIdeal.Fr

end
-- ==== Proof.RouterSpec.lean ====
/-
  What the router computes, stated once for both programs, over the extended reals.

  A token is a row of the activation matrix (32768 tokens, 4096 channels). Its logit against a weight row is the
  inner product over the channels. The routing probabilities of a token are the softmax of its 64 expert logits:
  each logit less the largest of them, exponentiated, divided by the sum of the 64 exponentials. The shared gate of
  a token is the logistic function of its logit against the one gate row.

  Nothing here mentions a program: both the kernel's value and the reference's are shown equal to these functions.
-/
import Idealize.ShloMosaic.PureOps.Ideal
import Idealize.ShloMosaic.Lib.ValueIdx

noncomputable section

open scoped BigOperators

namespace Cert.RouterSpec

open Idealize.ShloMosaic Idealize.ShloMosaic.ValueIdx

/-- The inner product, over the 4096 channels, of token `R`'s activations with one weight row `w`. -/
def logit (x : FVec Ideal ⟨2, ![32768, 4096]⟩ .f32) (w : Fin 4096 → EReal) (R : Fin 32768) : EReal :=
  ∑ k : Fin 4096, x (ix2 R k) * w k

/-- The largest of 64 values, as a fold of `max` started at the value of the f32 pattern of `-∞`
    (the pattern is kept as it is printed on both sides and never evaluated). -/
def rowMax (L : Fin 64 → EReal) : EReal :=
  (Finset.univ : Finset (Fin 64)).fold max (Ideal.ofBits .f32 0xFF800000#32) L

/-- The exponential of a value less the largest of the 64. -/
def expShift (L : Fin 64 → EReal) (j : Fin 64) : EReal := Ideal.exp (L j - rowMax L)

/-- The softmax of 64 values at position `j`. -/
def soft (L : Fin 64 → EReal) (j : Fin 64) : EReal :=
  Ideal.div (expShift L j) (∑ j' : Fin 64, expShift L j')

/-- The logistic function `1 / (1 + e^(-z))`. -/
def gate (z : EReal) : EReal := Ideal.div 1 (1 + Ideal.exp (-z))

/-- The routing probabilities: entry `(R, j)` is the softmax, at `j`, of token `R`'s logits against the 64 rows of `wr`. -/
def probs (x : FVec Ideal ⟨2, ![32768, 4096]⟩ .f32) (wr : FVec Ideal ⟨2, ![64, 4096]⟩ .f32) :
    FVec Ideal ⟨2, ![32768, 64]⟩ .f32 :=
  fun i => soft (fun c => logit x (fun k => wr (ix2 c k)) (i 0)) (i 1)

/-- The shared gate: entry `(R, 0)` is the logistic function of token `R`'s logit against the one row of `wg`. -/
def gates (x : FVec Ideal ⟨2, ![32768, 4096]⟩ .f32) (wg : FVec Ideal ⟨2, ![1, 4096]⟩ .f32) :
    FVec Ideal ⟨2, ![32768, 1]⟩ .f32 :=
  fun i => gate (logit x (fun k => wg (ix2 (0 : Fin 1) k)) (i 0))

/-- The fold of `max` from a start value is at least the start value, so taking `max` with the start value
    once more changes nothing (the reference takes the row maximum against `-∞` a second time). -/
theorem max_start_fold {ι : Type} (s : Finset ι) (b : EReal) (f : ι → EReal) :
    max b (s.fold max b f) = s.fold max b f :=
  max_eq_right (Finset.le_fold_max b |>.mpr (Or.inl le_rfl))

end Cert.RouterSpec

end
-- ==== Proof.KIBlockValue.lean ====
/-
  One 128-token slab of the kernel's body read at an index, at the ideal (extended-real) instance.

  The slab's products with the packed weights are, entry by entry, the inner product over the 4096 channels of a slab row
  with a weight row. The routing probabilities of a slab row are the softmax of its first 64 products; the shared gate
  is the logistic function of the product in column 64.
-/
import proofs.«129200_g7705171329365_cont_9to1_m_101_16_alg».proof.Proof.KIBlock
import proofs.«129200_g7705171329365_cont_9to1_m_101_16_alg».proof.Proof.RouterSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlkValue

open Idealize.ShloMosaic Idealize.ShloMosaic.ValueIdx Cert.KernelIdeal

/-- Row q of the slab against row c of the packed weights, contracted over the channels. -/
def rowLogit (w x : FVec Ideal S128x4096 .f32) (q c : Fin 128) : EReal := ∑ k : Fin 4096, x (ix2 q k) * w (ix2 c k)

/-- The kept axis of the left operand reads the output row. -/
theorem lhs_axis0 (i : S128x128.Idx) (p : dot_S128x4096_S128x4096_S128x128_1_1_0_0_n_n.contr.Idx) :
    (dot_S128x4096_S128x4096_S128x128_1_1_0_0_n_n.lhsIdx i p 0).val = (i 0).val := by
  unfold DotDims.lhsIdx
  rw [dif_neg (show ¬(0 : Fin S128x4096.rank) ∈ dot_S128x4096_S128x4096_S128x128_1_1_0_0_n_n.lhsBatch by decide),
    dif_pos (show (0 : Fin S128x4096.rank) ∈ dot_S128x4096_S128x4096_S128x128_1_1_0_0_n_n.lhsNonContracting by decide)]
  rfl

/-- The kept axis of the right operand reads the output column. -/
theorem rhs_axis0 (i : S128x128.Idx) (p : dot_S128x4096_S128x4096_S128x128_1_1_0_0_n_n.contr.Idx) :
    (dot_S128x4096_S128x4096_S128x128_1_1_0_0_n_n.rhsIdx i p 0).val = (i 1).val := by
  unfold DotDims.rhsIdx
  rw [dif_neg (show ¬(0 : Fin S128x4096.rank) ∈ dot_S128x4096_S128x4096_S128x128_1_1_0_0_n_n.rhsBatch by decide),
    dif_pos (show (0 : Fin S128x4096.rank) ∈ dot_S128x4096_S128x4096_S128x128_1_1_0_0_n_n.rhsNonContracting by decide)]
  rfl

/-- The slab's products read at `(q, c)`: the contraction over the channels of slab row `q` with weight row `c`. -/
theorem logitsAll_apply (w x : FVec Ideal S128x4096 .f32) (q c : Fin 128) :
    Cert.KernelIdeal.Blk.logitsAll (F := Ideal) w x (ix2 q c) = rowLogit w x q c := by
  unfold Cert.KernelIdeal.Blk.logitsAll rowLogit
  rw [shapeCast_self]
  simp only [matmul]
  rw [Ideal.matmul_constant_zero_apply,
    ← Equiv.sum_comp (contrEquiv1 dot_S128x4096_S128x4096_S128x128_1_1_0_0_n_n 4096 rfl rfl).symm]
  refine Finset.sum_congr rfl fun k _ => ?_
  have hk := contrEquiv1_symm_val dot_S128x4096_S128x4096_S128x128_1_1_0_0_n_n 4096 rfl rfl k
  have el : dot_S128x4096_S128x4096_S128x128_1_1_0_0_n_n.lhsIdx (ix2 q c)
      ((contrEquiv1 dot_S128x4096_S128x4096_S128x128_1_1_0_0_n_n 4096 rfl rfl).symm k) = ix2 q k :=
    funext fun a => Fin.ext (by
      match a with
      | ⟨0, _⟩ => exact lhs_axis0 _ _
      | ⟨1, _⟩ => exact (dot_S128x4096_S128x4096_S128x128_1_1_0_0_n_n.lhsIdx_val_of_single rfl _ _).trans hk)
  have er : dot_S128x4096_S128x4096_S128x128_1_1_0_0_n_n.rhsIdx (ix2 q c)
      ((contrEquiv1 dot_S128x4096_S128x4096_S128x128_1_1_0_0_n_n 4096 rfl rfl).symm k) = ix2 c k :=
    funext fun a => Fin.ext (by
      match a with
      | ⟨0, _⟩ => exact rhs_axis0 _ _
      | ⟨1, _⟩ => exact (dot_S128x4096_S128x4096_S128x128_1_1_0_0_n_n.rhsIdx_val_of_single rfl _ _).trans hk)
  rw [el, er]

/-! ## The keep-dims forms read at an index -/

section KeepDims
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end KeepDims

/-! ## The elementwise operations of the slab at an index -/

/-- An exponential at an index is the exponential of the element. -/
theorem exp_apply {s : Shape} {φ : FTy} (a : FVec Ideal s φ) (i : s.Idx) : exp a i = Ideal.exp (a i) := rfl
/-- A logistic function at an index is `1 / (1 + e^(-x))` of the element. -/
theorem logistic_apply {s : Shape} {φ : FTy} (a : FVec Ideal s φ) (i : s.Idx) :
    logistic a i = Ideal.div 1 (1 + Ideal.exp (-(a i))) := rfl

/-! ## The lane reductions of a 128 × 64 block -/

/-- The row index with the lane coordinate put back is the pair. -/
theorem lift_ix (h : S128x64.Reduces [1] S128) (q : Fin 128) (k : Fin 64) : h.lift (ix1 q) k = ix2 q k :=
  funext fun a => Fin.ext (by match a with | ⟨0, _⟩ => rfl | ⟨1, _⟩ => rfl)

/-- The lane sum of row `q`: the sum of the row's 64 entries (there is no starting value to add). -/
theorem laneSum_apply (e : FVec Ideal S128x64 .f32) (h : S128x64.Reduces [1] S128) (hφ : FKind.Formats .f32)
    (hacc : (0x00000000#32 : BitVec 32) = FKind.add.neutral .f32 hφ) (q : Fin 128) :
    multiReduction .add [1] S128 e 0x00000000#32 h hφ hacc (ix1 q) = ∑ k : Fin 64, e (ix2 q k) := by
  refine (Ideal.multiReduction_add_single e _ h hφ hacc (ix1 q)).trans ?_
  exact Finset.sum_congr rfl fun k _ => congrArg e (lift_ix h q k)

/-- The lane maximum of row `q`: the fold of `max` over the row's 64 entries from the value of the starting pattern. -/
theorem laneMax_apply (e : FVec Ideal S128x64 .f32) (h : S128x64.Reduces [1] S128) (hφ : FKind.Formats .f32)
    (hacc : (0xFF800000#32 : BitVec 32) = FKind.maximumf.neutral .f32 hφ) (q : Fin 128) :
    multiReduction .maximumf [1] S128 e 0xFF800000#32 h hφ hacc (ix1 q)
      = (Finset.univ : Finset (Fin 64)).fold max (Ideal.ofBits .f32 0xFF800000#32) (fun k => e (ix2 q k)) := by
  refine (Ideal.multiReduction_maximumf_single e _ h hφ hacc (ix1 q)).trans ?_
  exact congrArg (Finset.fold max (Ideal.ofBits .f32 0xFF800000#32) · (Finset.univ : Finset (Fin 64)))
    (funext fun k => congrArg e (lift_ix h q k))

/-- A row's reduced value, given its keep-dims axis back and spread over the 64 lanes, read at `(q, j)`. -/
theorem keepdims_apply (r : FVec Ideal S128 .f32) (h₁ : S128.ShapeCasts S128x1) (h₂ : S128x1.Broadcasts S128x64)
    (q : Fin 128) (j : Fin 64) :
    broadcastTo S128x64 (shapeCast S128x1 r h₁) h₂ (ix2 q j) = r (ix1 q) :=
  (broadcastTo_a1_ab_apply _ h₂ q j).trans (shapeCast_a_a1_apply r h₁ q 0)

/-! ## The slab's softmax and gate -/

/-- The 64 expert columns of row `q` of the products. -/
abbrev expertRow (z : FVec Ideal S128x128 .f32) (q : Fin 128) : Fin 64 → EReal :=
  fun c : Fin 64 => z (ix2 q (Fin.castLE (by decide : 64 ≤ 128) c))

/-- The expert columns cut out of the products, read at `(q, j)`. -/
theorem expertSlice_apply (z : FVec Ideal S128x128 .f32) (h : S128x128.Slices ![0, 0] S128x64) (q : Fin 128) (j : Fin 64) :
    extractStridedSlice S128x64 ![0, 0] z h (ix2 q j) = expertRow z q j :=
  slice2_axis1_apply 0 z h q j (Fin.castLE (by decide : 64 ≤ 128) j) (Nat.zero_add _).symm

/-- The shifted exponentials read at `(q, j)`: the exponential of the logit less the row's largest. -/
theorem shiftExp_apply (z : FVec Ideal S128x128 .f32) (q : Fin 128) (j : Fin 64) :
    Cert.KernelIdeal.Blk.shiftExp (F := Ideal) z (ix2 q j) = Cert.RouterSpec.expShift (expertRow z q) j := by
  unfold Cert.KernelIdeal.Blk.shiftExp Cert.RouterSpec.expShift Cert.RouterSpec.rowMax
  refine (exp_apply _ _).trans (congrArg Ideal.exp ?_)
  refine (subf_apply _ _ _).trans ?_
  refine congrArg₂ (· - ·) (expertSlice_apply z _ q j) ?_
  refine (keepdims_apply _ _ _ q j).trans ?_
  refine (laneMax_apply _ _ _ _ q).trans ?_
  exact congrArg (Finset.fold max (Ideal.ofBits .f32 0xFF800000#32) · (Finset.univ : Finset (Fin 64)))
    (funext fun k => expertSlice_apply z _ q k)

/-- The slab's routing probabilities read at `(q, j)`: the softmax, at `j`, of the 64 expert logits of row `q`. -/
theorem probsOf_apply (z : FVec Ideal S128x128 .f32) (q : Fin 128) (j : Fin 64) :
    Cert.KernelIdeal.Blk.probsOf (F := Ideal) z (ix2 q j)
      = Cert.RouterSpec.soft (fun c : Fin 64 => z (ix2 q (Fin.castLE (by decide : 64 ≤ 128) c))) j := by
  unfold Cert.KernelIdeal.Blk.probsOf Cert.KernelIdeal.Blk.normalize Cert.RouterSpec.soft
  refine (divf_apply _ _ _).trans ?_
  refine congrArg₂ Ideal.div (shiftExp_apply z q j) ?_
  refine (keepdims_apply _ _ _ q j).trans ?_
  refine (laneSum_apply _ _ _ _ q).trans ?_
  exact Finset.sum_congr rfl fun k _ => shiftExp_apply z q k

/-- The slab's shared gate read at `(q, 0)`: the logistic function of column 64 of row `q`. -/
theorem gateOf_apply (z : FVec Ideal S128x128 .f32) (q : Fin 128) :
    Cert.KernelIdeal.Blk.gateOf (F := Ideal) z (ix2 q (0 : Fin 1))
      = Cert.RouterSpec.gate (z (ix2 q (⟨64, by decide⟩ : Fin 128))) := by
  unfold Cert.KernelIdeal.Blk.gateOf Cert.RouterSpec.gate
  refine (logistic_apply _ _).trans ?_
  exact congrArg (fun t => Ideal.div 1 (1 + Ideal.exp (-t)))
    (slice2_axis1_apply 64 z _ q (0 : Fin 1) (⟨64, by decide⟩ : Fin 128) rfl)

end Cert.KernelIdeal.BlkValue

end
-- ==== Proof.KIValue.lean ====
/-
  What the router kernel's two result arrays hold after the run, at the extended reals: the routing probabilities and
  the shared gate of the specification, as functions of the three argument arrays.

  The packed weight matrix the region reads is the concatenation of the 64 router rows, the gate row and 63 zero rows:
  its row `e < 64` is router row `e`, its row 64 the gate row. Grid point `t` is handed tokens `1024 t … 1024 t + 1023`;
  slab `p` of that block is tokens `1024 t + 128 p …`. A slab's stored probabilities are the softmax of its tokens'
  products with packed rows 0–63, which are the router rows; its stored gate is the logistic function of the product
  with packed row 64, the gate row. So every entry a grid point writes back is the specification's entry at the same
  position of the whole array, and the 32 blocks tile each result array.
-/
import proofs.«129200_g7705171329365_cont_9to1_m_101_16_alg».proof.Proof.KIFrame
import proofs.«129200_g7705171329365_cont_9to1_m_101_16_alg».proof.Proof.KIBlockValue
import Idealize.ShloMosaic.Lib.StableHlo.Run
import Idealize.ShloMosaic.Lib.Pipeline.Value

set_option maxRecDepth 16384

noncomputable section

namespace Cert.KernelIdeal.Val

open Cert.KernelIdeal Cert.KernelIdeal.Gen Cert.KernelIdeal.Body Cert.KernelIdeal.Fr
open Idealize.ShloMosaic Idealize.ShloMosaic.TcCoe Idealize.ShloMosaic.ValueIdx Idealize.SL.Sem Idealize.ShloMosaic.StableHlo
open Idealize.ShloMosaic.Pipeline (Dat)

/-! ## The packed weights, row by row -/

/-- Row `e < 64` of the concatenation of 64, 1 and 63 rows is row `e` of the first operand. -/
theorem concat_router (a : S64x4096.Idx → EReal) (b : S1x4096.Idx → EReal) (z : S63x4096.Idx → EReal) (e : Fin 64) (k : Fin 4096) :
    concatenate S128x4096 0 [⟨S64x4096, a⟩, ⟨S1x4096, b⟩, ⟨S63x4096, z⟩] concatenates_S64x4096_S1x4096_S63x4096_S128x4096_d0
        (ix2 (Fin.castLE (by decide : 64 ≤ 128) e) k) = a (ix2 e k) :=
  concatenate_apply_piece (t := S128x4096) (0 : Fin 2) [⟨S64x4096, a⟩, ⟨S1x4096, b⟩, ⟨S63x4096, z⟩] concatenates_S64x4096_S1x4096_S63x4096_S128x4096_d0
    (ix2 (Fin.castLE (by decide : 64 ≤ 128) e) k) 0 (Nat.zero_lt_succ _) S64x4096 a rfl rfl 0 rfl (ix2 e k)
    (fun b hb => match b with
      | ⟨0, _⟩ => absurd rfl hb
      | ⟨1, _⟩ => rfl) (Nat.zero_add _)

/-- Row 64 of that concatenation is the one row of the second operand. -/
theorem concat_gate (a : S64x4096.Idx → EReal) (b : S1x4096.Idx → EReal) (z : S63x4096.Idx → EReal) (k : Fin 4096) :
    concatenate S128x4096 0 [⟨S64x4096, a⟩, ⟨S1x4096, b⟩, ⟨S63x4096, z⟩] concatenates_S64x4096_S1x4096_S63x4096_S128x4096_d0
        (ix2 (⟨64, by decide⟩ : Fin 128) k) = b (ix2 (0 : Fin 1) k) :=
  concatenate_apply_piece (t := S128x4096) (0 : Fin 2) [⟨S64x4096, a⟩, ⟨S1x4096, b⟩, ⟨S63x4096, z⟩] concatenates_S64x4096_S1x4096_S63x4096_S128x4096_d0
    (ix2 (⟨64, by decide⟩ : Fin 128) k) 1 (Nat.succ_lt_succ (Nat.zero_lt_succ _)) S1x4096 b rfl rfl 64 rfl (ix2 (0 : Fin 1) k)
    (fun b hb => match b with
      | ⟨0, _⟩ => absurd rfl hb
      | ⟨1, _⟩ => rfl) rfl

variable (m : (ℓ : Loc nD τ sig) → Buf (Elt Ideal) ℓ) (ρ : Dev nD → PrngReg)

/-- The three argument arrays on core `c`, as launched. -/
abbrev tokens (c : Dev nD) : FVec Ideal ⟨2, ![32768, 4096]⟩ .f32 := m ((c : Thread nD τ).loc main_arg0)
abbrev routerRows (c : Dev nD) : FVec Ideal ⟨2, ![64, 4096]⟩ .f32 := m ((c : Thread nD τ).loc main_arg1)
abbrev gateRow (c : Dev nD) : FVec Ideal ⟨2, ![1, 4096]⟩ .f32 := m ((c : Thread nD τ).loc main_arg2)

/-- Row `e < 64` of the packed weights the region finds is router row `e`. -/
theorem packed_router (c : Dev nD) (e : Fin 64) (k : Fin 4096) :
    (entry m c main_v1 : S128x4096.Idx → EReal) (ix2 (Fin.castLE (by decide : 64 ≤ 128) e) k) = routerRows m c (ix2 e k) := by
  dsimp only [entry, hostOps0]
  after_results
  refine (concat_router _ _ _ e k).trans ?_
  dsimp only
  rw [unary_result_ne]; rotate_left; decide
  rw [nullary_result_ne]; rotate_left; decide
  rfl

/-- Row 64 of the packed weights the region finds is the gate row. -/
theorem packed_gate (c : Dev nD) (k : Fin 4096) :
    (entry m c main_v1 : S128x4096.Idx → EReal) (ix2 (⟨64, by decide⟩ : Fin 128) k) = gateRow m c (ix2 (0 : Fin 1) k) := by
  dsimp only [entry, hostOps0]
  after_results
  refine (concat_gate _ _ _ k).trans ?_
  dsimp only
  rw [unary_result_ne]; rotate_left; decide
  rw [nullary_result_ne]; rotate_left; decide
  rfl

/-! ## One slab, over variables -/

/-- A slab's probabilities, from what the block and the weights hold: if the block `X` holds tokens `1024 T …` of `x0`
    and rows 0–63 of `W` are the rows of `w1`, the softmax stored for row `q` of the slab at row offset `o` is the
    specification's entry for token `1024 T + o + q`. -/
theorem slab_probs (W : FVec Ideal S128x4096 .f32) (X : FVec Ideal S1024x4096 .f32)
    (x0 : FVec Ideal ⟨2, ![32768, 4096]⟩ .f32) (w1 : FVec Ideal ⟨2, ![64, 4096]⟩ .f32) (T : Fin 32)
    (hX : ∀ (r : Fin 1024) (k : Fin 4096), X (ix2 r k) = x0 (ix2 (⟨1024 * T.val + r.val, by omega⟩ : Fin 32768) k))
    (hW : ∀ (e : Fin 64) (k : Fin 4096), W (ix2 (Fin.castLE (by decide : 64 ≤ 128) e) k) = w1 (ix2 e k))
    (o : Nat) (ho : o + 128 ≤ 1024) (inbX : ∀ a, (![o, 0] : Fin 2 → Nat) a + S128x4096.size a ≤ S1024x4096.size a)
    (q : Fin 128) (j : Fin 64) :
    Blk.probsOf (F := Ideal) (Blk.logitsAll (View.ld W rW) (View.ld X (Rect.unit (s := S1024x4096) ![o, 0] S128x4096.size inbX))) (ix2 q j)
      = Cert.RouterSpec.probs x0 w1 (ix2 (⟨1024 * T.val + (o + q.val), by omega⟩ : Fin 32768) j) := by
  refine (BlkValue.probsOf_apply _ q j).trans ?_
  show Cert.RouterSpec.soft _ j = Cert.RouterSpec.soft _ j
  refine congrArg (fun L => Cert.RouterSpec.soft L j) (funext fun e => ?_)
  refine (BlkValue.logitsAll_apply _ _ q _).trans ?_
  unfold BlkValue.rowLogit Cert.RouterSpec.logit
  refine Finset.sum_congr rfl fun k _ => ?_
  have h1 : (View.ld X (Rect.unit (s := S1024x4096) ![o, 0] S128x4096.size inbX) : Vec Ideal S128x4096 .f32) (ix2 q k) = X (ix2 (⟨o + q.val, by omega⟩ : Fin 1024) k) := by
    refine congrArg X (funext fun a => Fin.ext ?_)
    match a with
    | ⟨0, _⟩ => show o + 1 * q.val = o + q.val; omega
    | ⟨1, _⟩ => show 0 + 1 * k.val = k.val; omega
  have h2 : (View.ld W rW : Vec Ideal S128x4096 .f32) (ix2 (Fin.castLE (by decide : 64 ≤ 128) e) k) = W (ix2 (Fin.castLE (by decide : 64 ≤ 128) e) k) := by
    refine congrArg W (funext fun a => Fin.ext ?_)
    match a with
    | ⟨0, _⟩ => show 0 + 1 * e.val = e.val; omega
    | ⟨1, _⟩ => show 0 + 1 * k.val = k.val; omega
  rw [h1, h2, hX, hW]

/-- A slab's gate, likewise: if row 64 of `W` is the row of `w2`, the logistic value stored for row `q` of the slab at
    row offset `o` is the specification's entry for token `1024 T + o + q`. -/
theorem slab_gate (W : FVec Ideal S128x4096 .f32) (X : FVec Ideal S1024x4096 .f32)
    (x0 : FVec Ideal ⟨2, ![32768, 4096]⟩ .f32) (w2 : FVec Ideal ⟨2, ![1, 4096]⟩ .f32) (T : Fin 32)
    (hX : ∀ (r : Fin 1024) (k : Fin 4096), X (ix2 r k) = x0 (ix2 (⟨1024 * T.val + r.val, by omega⟩ : Fin 32768) k))
    (hW : ∀ (k : Fin 4096), W (ix2 (⟨64, by decide⟩ : Fin 128) k) = w2 (ix2 (0 : Fin 1) k))
    (o : Nat) (ho : o + 128 ≤ 1024) (inbX : ∀ a, (![o, 0] : Fin 2 → Nat) a + S128x4096.size a ≤ S1024x4096.size a)
    (q : Fin 128) :
    Blk.gateOf (F := Ideal) (Blk.logitsAll (View.ld W rW) (View.ld X (Rect.unit (s := S1024x4096) ![o, 0] S128x4096.size inbX))) (ix2 q (0 : Fin 1))
      = Cert.RouterSpec.gates x0 w2 (ix2 (⟨1024 * T.val + (o + q.val), by omega⟩ : Fin 32768) (0 : Fin 1)) := by
  refine (BlkValue.gateOf_apply _ q).trans ?_
  show Cert.RouterSpec.gate _ = Cert.RouterSpec.gate _
  refine congrArg Cert.RouterSpec.gate ?_
  refine (BlkValue.logitsAll_apply _ _ q _).trans ?_
  unfold BlkValue.rowLogit Cert.RouterSpec.logit
  refine Finset.sum_congr rfl fun k _ => ?_
  have h1 : (View.ld X (Rect.unit (s := S1024x4096) ![o, 0] S128x4096.size inbX) : Vec Ideal S128x4096 .f32) (ix2 q k) = X (ix2 (⟨o + q.val, by omega⟩ : Fin 1024) k) := by
    refine congrArg X (funext fun a => Fin.ext ?_)
    match a with
    | ⟨0, _⟩ => show o + 1 * q.val = o + q.val; omega
    | ⟨1, _⟩ => show 0 + 1 * k.val = k.val; omega
  have h2 : (View.ld W rW : Vec Ideal S128x4096 .f32) (ix2 (⟨64, by decide⟩ : Fin 128) k) = W (ix2 (⟨64, by decide⟩ : Fin 128) k) := by
    refine congrArg W (funext fun a => Fin.ext ?_)
    match a with
    | ⟨0, _⟩ => show 0 + 1 * 64 = 64; omega
    | ⟨1, _⟩ => show 0 + 1 * k.val = k.val; omega
  rw [h1, h2, hX, hW]

/-! ## The blocks the grid points are handed -/

/-- The index maps over the grid: the token window and the two result windows move down one block per point, the
    weight window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem grid_points : cfg0.N = 32 := N_0

/-- Point `t`'s token block holds tokens `1024 t …`. -/
theorem tokens_block (c : Dev nD) (t : Fin cfg0.N) (r : Fin 1024) (k : Fin 4096) :
    (blockAt m c 0 t : S1024x4096.Idx → EReal) (ix2 r k)
      = tokens m c (ix2 (⟨1024 * t.val + r.val, by have := lt_of_lt_of_eq t.isLt grid_points; omega⟩ : Fin 32768) k) := by
  obtain ⟨e0, e1, -⟩ := idx_facts t
  show entry m c main_arg0 (((cfg0.win 0).blk t).view.emb (ix2 r k)) = _
  rw [entry_arg0]
  refine congrArg (m ((c : Thread nD τ).loc main_arg0)) (funext fun a => Fin.ext ?_)
  match a with
  | ⟨0, _⟩ => show win0_0.index t (0 : Fin 2) * 1024 + 1 * r.val = 1024 * t.val + r.val; omega
  | ⟨1, _⟩ => show win0_0.index t (1 : Fin 2) * 4096 + 1 * k.val = k.val; omega

/-- Point `t`'s weight block is the whole packed matrix. -/
theorem weights_block (c : Dev nD) (t : Fin cfg0.N) (e : Fin 128) (k : Fin 4096) :
    (blockAt m c 1 t : S128x4096.Idx → EReal) (ix2 e k) = (entry m c main_v1 : S128x4096.Idx → EReal) (ix2 e k) := by
  obtain ⟨-, -, e0, e1, -⟩ := idx_facts t
  show entry m c main_v1 (((cfg0.win 1).blk t).view.emb (ix2 e k)) = _
  refine congrArg (entry m c main_v1) (funext fun a => Fin.ext ?_)
  match a with
  | ⟨0, _⟩ => show win0_1.index t (0 : Fin 2) * 128 + 1 * e.val = e.val; omega
  | ⟨1, _⟩ => show win0_1.index t (1 : Fin 2) * 4096 + 1 * k.val = k.val; omega

/-! ## What a grid point writes back -/

/-- One stored piece of the probabilities buffer at point `t`, read where it lands in the whole array. -/
theorem probs_piece (c : Dev nD) (t : Fin cfg0.N) (o : Nat) (ho : o + 128 ≤ 1024)
    (inbX : ∀ a, (![o, 0] : Fin 2 → Nat) a + S128x4096.size a ≤ S1024x4096.size a)
    (inbS : ∀ a, (![o, 0] : Fin 2 → Nat) a + S128x64.size a ≤ S1024x64.size a)
    (x : (Rect.unit (s := S1024x64) ![o, 0] S128x64.size inbS).shape.Idx) :
    Blk.probsOf (F := Ideal) (Blk.logitsAll (View.ld (blockAt m c 1 t) rW)
        (View.ld (blockAt m c 0 t) (Rect.unit (s := S1024x4096) ![o, 0] S128x4096.size inbX))) x
      = Cert.RouterSpec.probs (tokens m c) (routerRows m c)
          (((cfg0.win 2).blk t).view.emb ((Rect.unit (s := S1024x64) ![o, 0] S128x64.size inbS).emb x)) := by
  obtain ⟨q, j, rfl⟩ : ∃ (q : Fin 128) (j : Fin 64), x = ix2 q j := ⟨x 0, x 1, eq_ix2 (n0 := 128) (n1 := 64) x⟩
  obtain ⟨-, -, -, -, e0, e1, -⟩ := idx_facts t
  have ht : t.val < 32 := lt_of_lt_of_eq t.isLt grid_points
  refine (slab_probs (blockAt m c 1 t) (blockAt m c 0 t) (tokens m c) (routerRows m c) ⟨t.val, ht⟩
    (fun r k => tokens_block m c t r k)
    (fun e k => (weights_block m c t _ k).trans (packed_router m c e k)) o ho inbX q j).trans ?_
  refine congrArg (Cert.RouterSpec.probs (tokens m c) (routerRows m c)) (funext fun a => Fin.ext ?_)
  match a with
  | ⟨0, _⟩ => show 1024 * t.val + (o + q.val) = win0_2.index t (0 : Fin 2) * 1024 + 1 * (o + 1 * q.val); omega
  | ⟨1, _⟩ => show j.val = win0_2.index t (1 : Fin 2) * 64 + 1 * (0 + 1 * j.val); omega

/-- One stored piece of the gate buffer at point `t`, read where it lands in the whole array. -/
theorem gate_piece (c : Dev nD) (t : Fin cfg0.N) (o : Nat) (ho : o + 128 ≤ 1024)
    (inbX : ∀ a, (![o, 0] : Fin 2 → Nat) a + S128x4096.size a ≤ S1024x4096.size a)
    (inbG : ∀ a, (![o, 0] : Fin 2 → Nat) a + S128x1.size a ≤ S1024x1.size a)
    (x : (Rect.unit (s := S1024x1) ![o, 0] S128x1.size inbG).shape.Idx) :
    Blk.gateOf (F := Ideal) (Blk.logitsAll (View.ld (blockAt m c 1 t) rW)
        (View.ld (blockAt m c 0 t) (Rect.unit (s := S1024x4096) ![o, 0] S128x4096.size inbX))) x
      = Cert.RouterSpec.gates (tokens m c) (gateRow m c)
          (((cfg0.win 3).blk t).view.emb ((Rect.unit (s := S1024x1) ![o, 0] S128x1.size inbG).emb x)) := by
  obtain ⟨q, j, rfl⟩ : ∃ (q : Fin 128) (j : Fin 1), x = ix2 q j := ⟨x 0, x 1, eq_ix2 (n0 := 128) (n1 := 1) x⟩
  have hj : j = 0 := Fin.ext (by have := j.isLt; omega)
  subst hj
  obtain ⟨-, -, -, -, -, -, e0, e1⟩ := idx_facts t
  have ht : t.val < 32 := lt_of_lt_of_eq t.isLt grid_points
  refine (slab_gate (blockAt m c 1 t) (blockAt m c 0 t) (tokens m c) (gateRow m c) ⟨t.val, ht⟩
    (fun r k => tokens_block m c t r k)
    (fun k => (weights_block m c t _ k).trans (packed_gate m c k)) o ho inbX q).trans ?_
  refine congrArg (Cert.RouterSpec.gates (tokens m c) (gateRow m c)) (funext fun a => Fin.ext ?_)
  match a with
  | ⟨0, _⟩ => show 1024 * t.val + (o + q.val) = win0_3.index t (0 : Fin 2) * 1024 + 1 * (o + 1 * q.val); omega
  | ⟨1, _⟩ => show 0 = win0_3.index t (1 : Fin 2) * 1 + 1 * (0 + 1 * 0); omega

/-- What point `t` writes back to the probabilities array is block `t` of the specification's probabilities. -/
theorem flushed_probs (c : Dev nD) (t : Fin cfg0.N) :
    (dats m 0 c).flushed 2 t = ((cfg0.win 2).blk t).view.read (Elt Ideal) (Cert.RouterSpec.probs (tokens m c) (routerRows m c)) := by
  show (cfg0.win 2).cut (grid0.coords t) ((dats m 0 c).after 2 t) = _
  rw [after_probs]
  funext y
  show probsBuf (blockAt m c 1 t) (blockAt m c 0 t) y
    = (fun y' : S1024x64.Idx => Cert.RouterSpec.probs (tokens m c) (routerRows m c) (((cfg0.win 2).blk t).view.emb y')) y
  unfold probsBuf
  refine View.canon_apply_of_pieces
    (fun y' : S1024x64.Idx => Cert.RouterSpec.probs (tokens m c) (routerRows m c) (((cfg0.win 2).blk t).view.emb y')) _ ?_ y
    (probs_cover (F := Ideal) _ _ _ _ _ _ _ _ y)
  intro p hp
  simp only [List.mem_cons, List.mem_nil_iff, or_false] at hp
  rcases hp with rfl | rfl | rfl | rfl | rfl | rfl | rfl | rfl
  · exact fun x => probs_piece m c t 896 (by omega) inb_S1024x4096_S128x4096_896_0 inb_S1024x64_S128x64_896_0 x
  · exact fun x => probs_piece m c t 768 (by omega) inb_S1024x4096_S128x4096_768_0 inb_S1024x64_S128x64_768_0 x
  · exact fun x => probs_piece m c t 640 (by omega) inb_S1024x4096_S128x4096_640_0 inb_S1024x64_S128x64_640_0 x
  · exact fun x => probs_piece m c t 512 (by omega) inb_S1024x4096_S128x4096_512_0 inb_S1024x64_S128x64_512_0 x
  · exact fun x => probs_piece m c t 384 (by omega) inb_S1024x4096_S128x4096_384_0 inb_S1024x64_S128x64_384_0 x
  · exact fun x => probs_piece m c t 256 (by omega) inb_S1024x4096_S128x4096_256_0 inb_S1024x64_S128x64_256_0 x
  · exact fun x => probs_piece m c t 128 (by omega) inb_S1024x4096_S128x4096_128_0 inb_S1024x64_S128x64_128_0 x
  · exact fun x => probs_piece m c t 0 (by omega) inb_S1024x4096_S128x4096_0_0 inb_S1024x64_S128x64_0_0 x

/-- What point `t` writes back to the gate array is block `t` of the specification's gates. -/
theorem flushed_gates (c : Dev nD) (t : Fin cfg0.N) :
    (dats m 0 c).flushed 3 t = ((cfg0.win 3).blk t).view.read (Elt Ideal) (Cert.RouterSpec.gates (tokens m c) (gateRow m c)) := by
  show (cfg0.win 3).cut (grid0.coords t) ((dats m 0 c).after 3 t) = _
  rw [after_gate]
  funext y
  show gateBuf (blockAt m c 1 t) (blockAt m c 0 t) y
    = (fun y' : S1024x1.Idx => Cert.RouterSpec.gates (tokens m c) (gateRow m c) (((cfg0.win 3).blk t).view.emb y')) y
  unfold gateBuf
  refine View.canon_apply_of_pieces
    (fun y' : S1024x1.Idx => Cert.RouterSpec.gates (tokens m c) (gateRow m c) (((cfg0.win 3).blk t).view.emb y')) _ ?_ y
    (gate_cover (F := Ideal) _ _ _ _ _ _ _ _ y)
  intro p hp
  simp only [List.mem_cons, List.mem_nil_iff, or_false] at hp
  rcases hp with rfl | rfl | rfl | rfl | rfl | rfl | rfl | rfl
  · exact fun x => gate_piece m c t 896 (by omega) inb_S1024x4096_S128x4096_896_0 inb_S1024x1_S128x1_896_0 x
  · exact fun x => gate_piece m c t 768 (by omega) inb_S1024x4096_S128x4096_768_0 inb_S1024x1_S128x1_768_0 x
  · exact fun x => gate_piece m c t 640 (by omega) inb_S1024x4096_S128x4096_640_0 inb_S1024x1_S128x1_640_0 x
  · exact fun x => gate_piece m c t 512 (by omega) inb_S1024x4096_S128x4096_512_0 inb_S1024x1_S128x1_512_0 x
  · exact fun x => gate_piece m c t 384 (by omega) inb_S1024x4096_S128x4096_384_0 inb_S1024x1_S128x1_384_0 x
  · exact fun x => gate_piece m c t 256 (by omega) inb_S1024x4096_S128x4096_256_0 inb_S1024x1_S128x1_256_0 x
  · exact fun x => gate_piece m c t 128 (by omega) inb_S1024x4096_S128x4096_128_0 inb_S1024x1_S128x1_128_0 x
  · exact fun x => gate_piece m c t 0 (by omega) inb_S1024x4096_S128x4096_0_0 inb_S1024x1_S128x1_0_0 x

/-! ## The 32 blocks tile each result array -/

theorem mem_probs_blk (t : Fin cfg0.N) (i : S32768x64.Idx) :
    i ∈ ((cfg0.win 2).blk t).view.set ↔ ∀ a : Fin 2, win0_2.index t a * S1024x64.size a ≤ (i a).val ∧ (i a).val < win0_2.index t a * S1024x64.size a + S1024x64.size a := by
  show i ∈ ((View.whole main_v2_0).slice (win0_2.rect t)).set ↔ _
  rw [View.set_slice_whole, Rect.mem_set_unit]
  exact Iff.rfl

theorem mem_gate_blk (t : Fin cfg0.N) (i : S32768x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v2_1).slice (win0_3.rect t)).set ↔ _
  rw [View.set_slice_whole, Rect.mem_set_unit]
  exact Iff.rfl

/-- Token `R`'s row of the probabilities array is in the block of point `R / 1024`. -/
theorem probs_tiled (i : S32768x64.Idx) : ∃ t : Fin cfg0.N, (cfg0.win 2).flush t = true ∧ i ∈ ((cfg0.win 2).blk t).view.set := by
  have hi0 : (i 0).val < 32768 := (i 0).isLt
  have hi1 : (i 1).val < 64 := (i 1).isLt
  refine ⟨⟨(i 0).val / 1024, by rw [grid_points]; omega⟩, flush0_2 _, ?_⟩
  obtain ⟨-, -, -, -, e0, e1, -⟩ := idx_facts ⟨(i 0).val / 1024, by rw [grid_points]; omega⟩
  rw [mem_probs_blk]
  intro a
  match a with
  | ⟨0, _⟩ => show win0_2.index _ (0 : Fin 2) * 1024 ≤ (i 0).val ∧ (i 0).val < win0_2.index _ (0 : Fin 2) * 1024 + 1024; rw [e0]; show (i 0).val / 1024 * 1024 ≤ (i 0).val ∧ (i 0).val < (i 0).val / 1024 * 1024 + 1024; omega
  | ⟨1, _⟩ => show win0_2.index _ (1 : Fin 2) * 64 ≤ (i 1).val ∧ (i 1).val < win0_2.index _ (1 : Fin 2) * 64 + 64; rw [e1]; omega

/-- Token `R`'s row of the gate array is in the block of point `R / 1024`. -/
theorem gates_tiled (i : S32768x1.Idx) : ∃ t : Fin cfg0.N, (cfg0.win 3).flush t = true ∧ i ∈ ((cfg0.win 3).blk t).view.set := by
  have hi0 : (i 0).val < 32768 := (i 0).isLt
  have hi1 : (i 1).val < 1 := (i 1).isLt
  refine ⟨⟨(i 0).val / 1024, by rw [grid_points]; omega⟩, flush0_3 _, ?_⟩
  obtain ⟨-, -, -, -, -, -, e0, e1⟩ := idx_facts ⟨(i 0).val / 1024, by rw [grid_points]; omega⟩
  rw [mem_gate_blk]
  intro a
  match a with
  | ⟨0, _⟩ => show win0_3.index _ (0 : Fin 2) * 1024 ≤ (i 0).val ∧ (i 0).val < win0_3.index _ (0 : Fin 2) * 1024 + 1024; rw [e0]; show (i 0).val / 1024 * 1024 ≤ (i 0).val ∧ (i 0).val < (i 0).val / 1024 * 1024 + 1024; omega
  | ⟨1, _⟩ => show win0_3.index _ (1 : Fin 2) * 1 ≤ (i 1).val ∧ (i 1).val < win0_3.index _ (1 : Fin 2) * 1 + 1; rw [e1]; omega

/-! ## The result arrays after the run -/

theorem final_probs (c : Dev nD) : (dats m 0 c).arrAt 2 cfg0.N = Cert.RouterSpec.probs (tokens m c) (routerRows m c) :=
  (dats m 0 c).arrAt_eq_of_cover 2 _ (fun t _ => flushed_probs m c t) (fun i => probs_tiled i)

theorem final_gates (c : Dev nD) : (dats m 0 c).arrAt 3 cfg0.N = Cert.RouterSpec.gates (tokens m c) (gateRow m c) :=
  (dats m 0 c).arrAt_eq_of_cover 3 _ (fun t _ => flushed_gates m c t) (fun i => gates_tiled i)

/-- Every weakly fair execution of the kernel's program terminates with the two result arrays at the specification's
    probabilities and gates of the launched arguments, and the arguments unchanged. -/
theorem run : θ_run defs (onTc (τ := τ) (main (F := Ideal))) ⟨m, fun _ => 0, ρ⟩ fun r => ∀ c : Dev nD,
      r.2.mem ((c.tc : Thread nD τ).loc main_v2_0) = Cert.RouterSpec.probs (tokens m c) (routerRows m c)
      ∧ r.2.mem ((c.tc : Thread nD τ).loc main_v2_1) = Cert.RouterSpec.gates (tokens m c) (gateRow m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).1 2).trans (final_probs m c), ((h c).1 3).trans (final_gates m c),
      ((h c).1 0).trans (((dats m 0 c).arrAt_in 0 rfl _).trans ((dats_A m c 0).trans (entry_arg0 m c))),
      ((h c).2 main_arg1 (Pipeline.mem_restRefs_of main_arg1 (by decide) (by decide))).trans (entry_arg1 m c),
      ((h c).2 main_arg2 (Pipeline.mem_restRefs_of main_arg2 (by decide) (by decide))).trans (entry_arg2 m c)⟩) (run_main m ρ)

end Cert.KernelIdeal.Val

end
-- ==== Proof.RefValue.lean ====
/-
  The reference program's two results are the router's specification: the routing probabilities are the row-wise
  softmax of the 64 expert logits, and the shared gate is the logistic function of the gate logit.

  Each stage of the reference is read at an index. The logits are inner products over the 4096 channels; the row
  maximum is a fold of `max` over the 64 columns started at the pattern of `-∞`, and taking `max` with that same
  start value once more changes nothing; the row sum of the exponentials starts from `0`; the two constants of
  the gate are the pattern of `1`.
-/
import proofs.«129200_g7705171329365_cont_9to1_m_101_16_alg».proof.Proof.Gen.ReferenceIdeal.Read
import proofs.«129200_g7705171329365_cont_9to1_m_101_16_alg».proof.Proof.RouterSpec
import Idealize.ShloMosaic.PureOps.Reduce
import Idealize.ShloMosaic.PureOps.Ideal.Laws
import Idealize.ShloMosaic.Lib.ValueIdx

noncomputable section

open scoped BigOperators

namespace Cert.RefValue

open Cert.ReferenceIdeal Cert.ReferenceIdeal.Gen Cert.ReferenceIdeal.Read Cert.RouterSpec
open Idealize.ShloMosaic Idealize.ShloMosaic.ValueIdx

/-- The 64 expert logits of token `R`. -/
abbrev L (x0 : (⟨S32768x4096, .f32⟩ : BufTy).Contents (Elt Ideal)) (x1 : (⟨S64x4096, .f32⟩ : BufTy).Contents (Elt Ideal))
    (R : Fin 32768) : Fin 64 → EReal :=
  fun c => logit x0 (fun k => x1 (ix2 c k)) R

/-- The logits stage at `(R, j)` is the inner product of token `R` with expert row `j`. -/
theorem v1_at (x0 : (⟨S32768x4096, .f32⟩ : BufTy).Contents (Elt Ideal)) (x1 : (⟨S64x4096, .f32⟩ : BufTy).Contents (Elt Ideal))
    (R : Fin 32768) (j : Fin 64) :
    val_main_v1 (F := Ideal) x0 x1 (ix2 R j) = L x0 x1 R j := by
  rw [val_main_v1_apply]
  show _ = ∑ k : Fin 4096, x0 (ix2 R k) * x1 (ix2 j k)
  refine Finset.sum_congr rfl fun k _ => ?_
  rw [val_main_v0_apply]
  have e0 : lidx_main_v1 (ix2 R j) k = ix2 R k := funext fun a => by
    match a with
    | ⟨0, _⟩ => rfl
    | ⟨1, _⟩ => rfl
  have e1 : idx_main_v0 (ridx_main_v1 (ix2 R j) k) = ix2 j k := funext fun a => by
    match a with
    | ⟨0, _⟩ => rfl
    | ⟨1, _⟩ => rfl
  rw [e0, e1]

/-- The 64-column source shape drops its column axis to the row shape. -/
theorem reduces_d1 : S32768x64.Reduces [1] S32768 := by decide

/-- Row index `R` with column `k` put back is `(R, k)`. -/
theorem lift_row (h : S32768x64.Reduces [1] S32768) (R : Fin 32768) (k : Fin (S32768x64.size 1)) :
    h.lift (ix1 R) k = ix2 R (⟨k.val, k.isLt⟩ : Fin 64) := by
  funext c; apply Fin.ext
  fin_cases c <;> rfl

/-- The row maximum at `R` is the fold of `max` over the 64 logits of token `R`, started at the pattern of `-∞`. -/
theorem v2_at (x0 : (⟨S32768x4096, .f32⟩ : BufTy).Contents (Elt Ideal)) (x1 : (⟨S64x4096, .f32⟩ : BufTy).Contents (Elt Ideal))
    (R : Fin 32768) :
    val_main_v2 (F := Ideal) x0 x1 (ix1 R) = rowMax (L x0 x1 R) := by
  unfold val_main_v2
  have hy : ∀ c : Fin 64, val_main_v1 (F := Ideal) x0 x1 (ix2 R c) = L x0 x1 R c := fun c => v1_at x0 x1 R c
  generalize val_main_v1 (F := Ideal) x0 x1 = y at hy
  refine (Host.reduce_eq_fold_single (α := Ideal .f32) (s := S32768x64) (t := S32768) (u := S_) (a := 1)
    (FloatOps.maximumf (F := Ideal) (φ := .f32)) y (val_main_cst (F := Ideal))
    reducesTo_S32768x64_S32768_d1 reduces_d1 h_S_ (ix1 R)).trans ?_
  have hf : (y ∘ reduces_d1.lift (ix1 R)) = fun k : Fin 64 => L x0 x1 R k :=
    funext fun k => (congrArg y (lift_row reduces_d1 R k)).trans (hy _)
  unfold rowMax
  exact congrArg (fun f => Finset.fold max (Ideal.ofBits .f32 0xFF800000#32) f (Finset.univ : Finset (Fin 64))) hf

/-- Taking `max` of the row maximum with the pattern of `-∞` once more leaves the row maximum. -/
theorem v4_at (x0 : (⟨S32768x4096, .f32⟩ : BufTy).Contents (Elt Ideal)) (x1 : (⟨S64x4096, .f32⟩ : BufTy).Contents (Elt Ideal))
    (R : Fin 32768) :
    val_main_v4 (F := Ideal) x0 x1 (ix1 R) = rowMax (L x0 x1 R) := by
  rw [val_main_v4_apply, val_main_v3_apply, val_main_cst_0_apply, v2_at, Ideal.ofBits_def, Ideal.maximumf_def]
  unfold rowMax
  exact max_start_fold _ _ _

/-- The row maximum broadcast over the 64 columns. -/
theorem v6_at (x0 : (⟨S32768x4096, .f32⟩ : BufTy).Contents (Elt Ideal)) (x1 : (⟨S64x4096, .f32⟩ : BufTy).Contents (Elt Ideal))
    (R : Fin 32768) (j : Fin 64) :
    val_main_v6 (F := Ideal) x0 x1 (ix2 R j) = rowMax (L x0 x1 R) := by
  rw [val_main_v6_apply, val_main_v5_apply]
  have e : idx_main_v5 (idx_main_v6 (ix2 R j)) = ix1 R := funext fun a => by
    match a with
    | ⟨0, _⟩ => rfl
  rw [e, v4_at]

/-- The exponential of a logit less the row maximum. -/
theorem v8_at (x0 : (⟨S32768x4096, .f32⟩ : BufTy).Contents (Elt Ideal)) (x1 : (⟨S64x4096, .f32⟩ : BufTy).Contents (Elt Ideal))
    (R : Fin 32768) (j : Fin 64) :
    val_main_v8 (F := Ideal) x0 x1 (ix2 R j) = expShift (L x0 x1 R) j := by
  rw [val_main_v8_apply, val_main_v7_apply, v1_at, v6_at, Ideal.hostUnary_exp_def, Ideal.subf_def]
  rfl

/-- The row sum of the exponentials, started from `0`. -/
theorem v9_at (x0 : (⟨S32768x4096, .f32⟩ : BufTy).Contents (Elt Ideal)) (x1 : (⟨S64x4096, .f32⟩ : BufTy).Contents (Elt Ideal))
    (R : Fin 32768) :
    val_main_v9 (F := Ideal) x0 x1 (ix1 R) = ∑ j' : Fin 64, expShift (L x0 x1 R) j' := by
  rw [val_main_v9_apply, val_main_cst_1_apply, Ideal.ofBits_def, Ideal.ofBits_zero_f32, zero_add]
  refine Finset.sum_congr rfl fun k _ => ?_
  have e : idx_main_v9 (ix1 R) k = ix2 R k := funext fun a => by
    match a with
    | ⟨0, _⟩ => rfl
    | ⟨1, _⟩ => rfl
  rw [e, v8_at]

/-- The row sum broadcast over the 64 columns. -/
theorem v11_at (x0 : (⟨S32768x4096, .f32⟩ : BufTy).Contents (Elt Ideal)) (x1 : (⟨S64x4096, .f32⟩ : BufTy).Contents (Elt Ideal))
    (R : Fin 32768) (j : Fin 64) :
    val_main_v11 (F := Ideal) x0 x1 (ix2 R j) = ∑ j' : Fin 64, expShift (L x0 x1 R) j' := by
  rw [val_main_v11_apply, val_main_v10_apply]
  have e : idx_main_v10 (idx_main_v11 (ix2 R j)) = ix1 R := funext fun a => by
    match a with
    | ⟨0, _⟩ => rfl
  rw [e, v9_at]

/-- The reference's routing probabilities are the softmax of the expert logits. -/
theorem probs_eq (x0 : (⟨Cert.ReferenceIdeal.S32768x4096, .f32⟩ : BufTy).Contents (Elt Ideal)) (x1 : (⟨Cert.ReferenceIdeal.S64x4096, .f32⟩ : BufTy).Contents (Elt Ideal)) :
    Cert.ReferenceIdeal.Read.val_main_v12 (F := Ideal) x0 x1 = Cert.RouterSpec.probs x0 x1 := by
  funext i
  obtain ⟨R, j, rfl⟩ : ∃ (R : Fin 32768) (j : Fin 64), i = ix2 R j := ⟨i 0, i 1, eq_ix2 i⟩
  rw [val_main_v12_apply, v8_at, v11_at, Ideal.hostDivf_def]
  rfl

/-- The f32 pattern `0x3F800000` (sign 0, exponent 127, fraction 0) is the number `1`. -/
theorem ofBits_one_f32 : Ideal.ofBits .f32 0x3F800000#32 = 1 := by
  simp [Ideal.ofBits, Ideal.ieee]
  rw [← EReal.coe_mul]
  norm_num

/-- The gate logit stage at `(R, z)` is the inner product of token `R` with the one gate row. -/
theorem v14_at (x0 : (⟨S32768x4096, .f32⟩ : BufTy).Contents (Elt Ideal)) (x2 : (⟨S1x4096, .f32⟩ : BufTy).Contents (Elt Ideal))
    (R : Fin 32768) (z : Fin 1) :
    val_main_v14 (F := Ideal) x0 x2 (ix2 R z) = logit x0 (fun k => x2 (ix2 (0 : Fin 1) k)) R := by
  obtain rfl : z = 0 := Subsingleton.elim _ _
  rw [val_main_v14_apply]
  show _ = ∑ k : Fin 4096, x0 (ix2 R k) * x2 (ix2 (0 : Fin 1) k)
  refine Finset.sum_congr rfl fun k _ => ?_
  rw [val_main_v13_apply]
  have e0 : lidx_main_v14 (ix2 R (0 : Fin 1)) k = ix2 R k := funext fun a => by
    match a with
    | ⟨0, _⟩ => rfl
    | ⟨1, _⟩ => rfl
  have e1 : idx_main_v13 (ridx_main_v14 (ix2 R (0 : Fin 1)) k) = ix2 (0 : Fin 1) k := funext fun a => by
    match a with
    | ⟨0, _⟩ => rfl
    | ⟨1, _⟩ => rfl
  rw [e0, e1]

/-- The reference's shared gate is the logistic function of the gate logit. -/
theorem gates_eq (x0 : (⟨Cert.ReferenceIdeal.S32768x4096, .f32⟩ : BufTy).Contents (Elt Ideal)) (x2 : (⟨Cert.ReferenceIdeal.S1x4096, .f32⟩ : BufTy).Contents (Elt Ideal)) :
    Cert.ReferenceIdeal.Read.val_main_v20 (F := Ideal) x0 x2 = Cert.RouterSpec.gates x0 x2 := by
  funext i
  obtain ⟨R, z, rfl⟩ : ∃ (R : Fin 32768) (z : Fin 1), i = ix2 R z := ⟨i 0, i 1, eq_ix2 i⟩
  rw [val_main_v20_apply, val_main_v19_apply, val_main_cst_3_apply, val_main_v18_apply, val_main_v17_apply,
    val_main_cst_2_apply, val_main_v16_apply, val_main_v15_apply, v14_at, Ideal.ofBits_def, ofBits_one_f32,
    Ideal.hostDivf_def, Ideal.addf_def, Ideal.hostUnary_exp_def, Ideal.hostNegf_def, Ideal.negf_def]
  rfl

end Cert.RefValue

end
-- ==== Proof.lean ====
/-
  The router kernel against its reference: the five claims.

  Both programs compute, for 32768 tokens of 4096 channels, the routing probabilities (the row-wise softmax of the 64
  expert logits, each logit less the row maximum before exponentiating) and the shared gate (the logistic function
  of the gate logit). The kernel packs the router rows and the gate row into one 128-row matrix and takes one product
  per 128-token slab; the reference takes the two products separately over the whole array. At the extended reals the
  two results are the same functions of the arguments, entry by entry (Proof/RouterSpec.lean states them): the
  kernel's arrays by Proof/KIValue.lean, the reference's by Proof/RefValue.lean. The laws used are the commutativity
  and associativity of sums and that a maximum taken against its own start value is unchanged, so the precondition is
  never opened. Each kernel program's frame is its pipelined run (Proof/KFrame.lean at the word level,
  Proof/KIFrame.lean idealized); the reference's frame is its run with the results dropped. The idealization rewrote
  nothing, so there is nothing to preserve.
-/
import proofs.«129200_g7705171329365_cont_9to1_m_101_16_alg».proof.Defs
import proofs.«129200_g7705171329365_cont_9to1_m_101_16_alg».proof.Proof.Gen.Kernel
import proofs.«129200_g7705171329365_cont_9to1_m_101_16_alg».proof.Proof.Gen.KernelIdeal
import proofs.«129200_g7705171329365_cont_9to1_m_101_16_alg».proof.Proof.Gen.ReferenceIdeal
import proofs.«129200_g7705171329365_cont_9to1_m_101_16_alg».proof.Proof.Gen.Pre_finite_inputs
import proofs.«129200_g7705171329365_cont_9to1_m_101_16_alg».proof.Proof.Gen.ReferenceIdeal.Run
import proofs.«129200_g7705171329365_cont_9to1_m_101_16_alg».proof.Proof.Gen.ReferenceIdeal.Read
import proofs.«129200_g7705171329365_cont_9to1_m_101_16_alg».proof.Proof.KFrame
import proofs.«129200_g7705171329365_cont_9to1_m_101_16_alg».proof.Proof.KIFrame
import proofs.«129200_g7705171329365_cont_9to1_m_101_16_alg».proof.Proof.KIValue
import proofs.«129200_g7705171329365_cont_9to1_m_101_16_alg».proof.Proof.RefValue
import Idealize.ShloMosaic.Adequacy
import Idealize.ShloMosaic.Init

noncomputable section

namespace Cert.Proof

open Idealize.ShloMosaic Idealize.SL.Sem

/-- The word-level kernel program runs to its end and leaves its arguments unchanged. -/
theorem frame_kernel : Cert.frame_Kernel := fun m ρ _ => Cert.Kernel.Fr.frame m ρ

/-- The idealized kernel program likewise. -/
theorem frame_kernel_ideal : Cert.frame_KernelIdeal := fun m ρ _ => Cert.KernelIdeal.Fr.frame m ρ

/-- The reference runs to its end and leaves its arguments unchanged: its run, with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both programs end with the specification's probabilities and gates of
    those arguments. -/
theorem algebraic : Cert.algebraic_KernelIdeal_ReferenceIdeal := by
  intro m ρ m' ρ' _ hagree
  refine ⟨fun c => Cert.RouterSpec.probs (Cert.KernelIdeal.Val.tokens m c) (Cert.KernelIdeal.Val.routerRows m c),
    fun c => Cert.RouterSpec.gates (Cert.KernelIdeal.Val.tokens m c) (Cert.KernelIdeal.Val.gateRow m c),
    Cert.KernelIdeal.Val.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v12_eq, Cert.RefValue.probs_eq, (hagree c).1, (hagree c).2.1]
  · rw [(h c).2.1, Cert.ReferenceIdeal.Read.val_main_v20_eq, Cert.RefValue.gates_eq, (hagree c).1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
